-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S2x128 .f32) (main_arg7 : FVec F S2x128 .f32) (main_arg8 : FVec F S128x10 .f32) (main_arg9 : FVec F S10 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S2x128x128 .f32) (main_arg4 : FVec F S2x128 .f32) (main_arg5 : FVec F S2x128x128 .f32) (main_arg6 : FVec F S2x128 .f32) (main_arg7 : FVec F S2x128 .f32) (main_arg8 : FVec F S128x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000 : Shape := ⟨1, ![2000]⟩
abbrev S2000x1 : Shape := ⟨2, ![2000, 1]⟩
abbrev S128x1 : Shape := ⟨2, ![128, 1]⟩
abbrev S1x10 : Shape := ⟨2, ![1, 10]⟩

abbrev nBuf : Space → Nat
  | .hbm => 112
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S2x128x128, .f32⟩
  | .hbm, ⟨4, _⟩ => ⟨S2x128, .f32⟩
  | .hbm, ⟨5, _⟩ => ⟨S2x128x128, .f32⟩
  | .hbm, ⟨6, _⟩ => ⟨S2x128, .f32⟩
  | .hbm, ⟨7, _⟩ => ⟨S2x128, .f32⟩
  | .hbm, ⟨8, _⟩ => ⟨S128x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128x128, .f32⟩
  | .hbm, ⟨54, _⟩ => ⟨S128x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S1x128, .f32⟩
  | .hbm, ⟨81, _⟩ => ⟨S128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S50000x128, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S128, .f32⟩
  | .hbm, ⟨96, _⟩ => ⟨S50000x1, .i32⟩
  | .hbm, ⟨97, _⟩ => ⟨S128, .f32⟩
  | .hbm, ⟨98, _⟩ => ⟨S_, .f32⟩
  | .hbm, ⟨99, _⟩ => ⟨S128x128, .f32⟩
  | .hbm, ⟨100, _⟩ => ⟨S50000x1, .i32⟩
  | .hbm, ⟨101, _⟩ => ⟨S128x128, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128x1, .f32⟩
  | .hbm, ⟨106, _⟩ => ⟨S128x128, .f32⟩
  | .hbm, ⟨107, _⟩ => ⟨S128x128, .f32⟩
  | .hbm, ⟨108, _⟩ => ⟨S128x10, .f32⟩
  | .hbm, ⟨109, _⟩ => ⟨S1x10, .f32⟩
  | .hbm, ⟨110, _⟩ => ⟨S128x10, .f32⟩
  | .hbm, ⟨111, _⟩ => ⟨S128x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S2x128x128_S1x128x128_1_0_0 : S2x128x128.Slices ![1, 0, 0] S1x128x128
  slices_S2x128_S1x128_1_0 : S2x128.Slices ![1, 0] S1x128
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v53) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v66) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x10 : Shape := ⟨2, ![1, 10]⟩

abbrev nBuf : Space → Nat
  | .hbm => 180
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S128x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S50000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S128, .f32⟩
  | 65 => ⟨S_, .f32⟩
  | 66 => ⟨S50000, .f32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S50000x1, .f32⟩
  | 77 => ⟨S_, .f32⟩
  | 78 => ⟨S50000x1, .f32⟩
  | 79 => ⟨S50000x1, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S50000x128, .f32⟩
  | 112 => ⟨S1x128x128, .f32⟩
  | 113 => ⟨S128x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S1x128x128, .f32⟩
  | 121 => ⟨S128x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S128, .f32⟩
  | _ => ⟨S50000x128, .f32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x1, .f32⟩
  | 22 => ⟨S50000x1, .f32⟩
  | 23 => ⟨S50000x1, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S50000, .f32⟩
  | 34 => ⟨S_, .f32⟩
  | 35 => ⟨S128, .f32⟩
  | 36 => ⟨S50000x1, .i32⟩
  | 37 => ⟨S128, .f32⟩
  | 38 => ⟨S_, .f32⟩
  | 39 => ⟨S128x128, .f32⟩
  | 40 => ⟨S50000x1, .i32⟩
  | 41 => ⟨S128x128, .f32⟩
  | 42 => ⟨S_, .f32⟩
  | 43 => ⟨S128, .f32⟩
  | 44 => ⟨S128, .f32⟩
  | 45 => ⟨S128x1, .f32⟩
  | 46 => ⟨S128x128, .f32⟩
  | 47 => ⟨S128x128, .f32⟩
  | 48 => ⟨S128x10, .f32⟩
  | 49 => ⟨S1x10, .f32⟩
  | 50 => ⟨S128x10, .f32⟩
  | 51 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_c_12 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_15 : Ref sig .tc := ⟨.hbm, 128, rfl⟩
abbrev main_v97 : Ref sig .tc := ⟨.hbm, 129, rfl⟩
abbrev main_v98 : Ref sig .tc := ⟨.hbm, 130, rfl⟩
abbrev main_cst_16 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_17 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_call2_cst : Ref sig .tc := ⟨.hbm, 157, rfl⟩
abbrev main_call2_v0 : Ref sig .tc := ⟨.hbm, 158, rfl⟩
abbrev main_v121 : Ref sig .tc := ⟨.hbm, 159, rfl⟩
abbrev main_cst_20 : Ref sig .tc := ⟨.hbm, 160, rfl⟩
abbrev main_v122 : Ref sig .tc := ⟨.hbm, 161, rfl⟩
abbrev main_cst_21 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_22 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_23 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S2x128x128_S1x128x128_1_0_0 : S2x128x128.Slices ![1, 0, 0] S1x128x128
  slices_S2x128_S1x128_1_0 : S2x128.Slices ![1, 0] S1x128
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x10_S128x10_1_0_0_1_n_n_wf : DotDims.WF S128x128 S128x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel program's run with its RESULT named. @main is seven segments: three stretches of host operations
  (the in-degrees and their reciprocals; the first gather and scatter-add of neighbour rows; the first layer's weight slices),
  the first layer's region, a host stretch (the second aggregation and the second layer's weight slices), the second layer's
  region, and a last host stretch (mean pooling per graph and the classifier). The contents of the TensorCore's buffers at each
  boundary are a fold from the launch memory: a host stretch applies its operations' results, a region replaces its output
  array by what its grid points wrote back and leaves every other buffer as it found it. Every weakly fair execution
  terminates with every unscoped buffer at the last boundary's contents; read at the result buffer this names the result,
  read at the argument buffers it says the arguments end as launched.
-/
import proofs.«176213_j90091234001075_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the idealized kernel program terminates, nothing
    faulting; the result buffer ends at the last boundary's contents, the fold of the seven segments over the launch
    memory, and the ten argument arrays end as launched. -/
theorem run_named : θ_run defs (onTc (τ := τ) (main (F := F))) ⟨m, fun _ => 0, ρ⟩ (fun r => ∀ c : Dev nD,
      r.2.mem ((c.tc : Thread nD τ).loc main_v83) = W7 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v83 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelRun

end
-- ==== Proof.LayerSpec.lean ====
/-
  One GraphConv layer with layer normalisation and relu, on the extended reals, row by row.

  For a node with aggregated neighbour row `a` and own row `xr` (each of 128 entries), weights `Wrel`, `Wroot`
  (128 x 128), bias `b`, and the normalisation's scale `g` and shift `be` (each 128):

    y q   = ((sum_k a k * Wrel k q) + b q) + sum_k xr k * Wroot k q
    mu    = (sum_q y q) / 128
    var   = (sum_q (y q - mu) * (y q - mu)) / 128
    out q = max ((g q * (y q - mu)) * rsqrt (var + eps) + be q) 0

  with the three float literals kept as the words both programs print (0, 128 and the single-precision 1e-5): the same
  word on both sides is never evaluated. The grouping of every sum and product is the one both programs use, so no
  law of the extended reals is needed to join them, and no input has to be finite.
-/
import Idealize.ShloMosaic.PureOps.Ideal
import Idealize.ShloMosaic.Lib.ValueIdx

noncomputable section

open scoped BigOperators

namespace Cert.GraphLayer

open Idealize.ShloMosaic Idealize.ShloMosaic.ValueIdx

/-- The word of `0.0`. -/
abbrev w0 : EReal := Ideal.ofBits .f32 0x00000000#32
/-- The word of `128.0`, the length of a row. -/
abbrev w128 : EReal := Ideal.ofBits .f32 0x43000000#32
/-- The word of the normalisation's epsilon, single-precision `1e-5`. -/
abbrev wEps : EReal := Ideal.ofBits .f32 0x3727C5AC#32

/-- The affine part of a row: neighbours through `Wrel`, plus the bias, plus the node itself through `Wroot`. -/
def lin (a xr : Fin 128 → EReal) (Wrel Wroot : Fin 128 → Fin 128 → EReal) (b : Fin 128 → EReal) (q : Fin 128) : EReal :=
  ((∑ k : Fin 128, a k * Wrel k q) + b q) + ∑ k : Fin 128, xr k * Wroot k q

/-- The mean of a row of 128 entries: their sum divided by the word of 128. -/
def mean (y : Fin 128 → EReal) : EReal := Ideal.div (∑ k : Fin 128, y k) w128

/-- A row centred at its mean. -/
def centred (y : Fin 128 → EReal) (q : Fin 128) : EReal := y q - mean y

/-- Layer normalisation of a row followed by relu. -/
def norm (y g be : Fin 128 → EReal) (q : Fin 128) : EReal :=
  max ((g q * centred y q) * Ideal.rsqrt (mean (fun k => centred y k * centred y k) + wEps) + be q) w0

/-- One output row of the layer. -/
def row (a xr : Fin 128 → EReal) (Wrel Wroot : Fin 128 → Fin 128 → EReal) (b g be : Fin 128 → EReal) (q : Fin 128) : EReal :=
  norm (lin a xr Wrel Wroot b) g be q

/-- The layer on all 50000 nodes: entry `(r, q)` is row `r`'s output at `q`; a row depends on row `r` of `agg` and of
    `x` only, and on the whole of the weights. -/
def layer (agg x : (⟨2, ![50000, 128]⟩ : Shape).Idx → EReal) (Wrel Wroot : (⟨2, ![128, 128]⟩ : Shape).Idx → EReal)
    (b g be : Fin 128 → EReal) : (⟨2, ![50000, 128]⟩ : Shape).Idx → EReal :=
  fun i => row (fun k => agg (ix2 (n0 := 50000) (n1 := 128) (i 0) k)) (fun k => x (ix2 (n0 := 50000) (n1 := 128) (i 0) k))
    (fun k q => Wrel (ix2 k q)) (fun k q => Wroot (ix2 k q)) b g be (i 1)

theorem layer_apply (agg x : (⟨2, ![50000, 128]⟩ : Shape).Idx → EReal) (Wrel Wroot : (⟨2, ![128, 128]⟩ : Shape).Idx → EReal)
    (b g be : Fin 128 → EReal) (r : Fin 50000) (q : Fin 128) :
    layer agg x Wrel Wroot b g be (ix2 r q)
      = row (fun k => agg (ix2 r k)) (fun k => x (ix2 r k)) (fun k q => Wrel (ix2 k q)) (fun k q => Wroot (ix2 k q)) b g be q := rfl

end Cert.GraphLayer

end
-- ==== Proof.RefLayers.lean ====
/-
  The reference program's two layers are the layer specification.

  Each layer of the reference is a chain of array operations: two matrix products, a bias, a row mean, a row variance, a
  reciprocal square root, a scale and a shift, and a clamp at zero. Read at one entry `(r, q)`, every operation is
  either pointwise or reads its operand at an index computed from `(r, q)`; the index functions are identified with
  rows `(r, k)`, columns `(k, q)` and vector entries `q`, and the resulting expression is, with the same grouping of
  every sum and product, the specification's `row`. The only word evaluated is the zero a row sum starts from, which
  the extended reals' `0 + s = s` removes; the words 128, epsilon and the clamp's zero are the same on both sides.
-/
import proofs.«176213_j90091234001075_1_alg».proof.Proof.RefRead
import proofs.«176213_j90091234001075_1_alg».proof.Proof.LayerSpec
import Idealize.ShloMosaic.Lib.ValueIdx
import Idealize.ShloMosaic.PureOps.Ideal.Laws

noncomputable section

open scoped BigOperators

namespace Cert.RefLayers

open Cert.ReferenceIdeal Cert.ReferenceIdeal.Read Cert.GraphLayer Idealize.ShloMosaic Idealize.ShloMosaic.ValueIdx

/-! ## Layer 1 -/

/-- The affine part: entry `(r, k)` of the sum of the two products and the bias is `lin` of row `r`. -/
theorem l1_lin (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (k : Fin 128) :
    val_main_v39 (F := Ideal) x0 x1 x3 x4 x5 (ix2 r k)
      = lin (fun j : Fin 128 => val_main_v27 (F := Ideal) x0 x1 (ix2 r j)) (fun j : Fin 128 => x0 (ix2 r j))
          (fun j q : Fin 128 => val_main_v29 (F := Ideal) x3 (ix2 j q)) (fun j q : Fin 128 => val_main_v37 (F := Ideal) x5 (ix2 j q)) (fun j : Fin 128 => val_main_v32 (F := Ideal) x4 (ix1 j)) k := by
  rw [val_main_v39_apply, val_main_v35_apply, val_main_v30_apply, val_main_v38_apply, val_main_v34_apply, val_main_v33_apply]
  have h1 : ∀ j : Fin 128, lidx_main_v30 (ix2 r k) j = ix2 r j := fun j => funext fun a => Fin.ext (by match a with | ⟨0, _⟩ => rfl | ⟨1, _⟩ => rfl)
  have h2 : ∀ j : Fin 128, ridx_main_v30 (ix2 r k) j = ix2 j k := fun j => funext fun a => Fin.ext (by match a with | ⟨0, _⟩ => rfl | ⟨1, _⟩ => rfl)
  have h3 : ∀ j : Fin 128, lidx_main_v38 (ix2 r k) j = ix2 r j := fun j => funext fun a => Fin.ext (by match a with | ⟨0, _⟩ => rfl | ⟨1, _⟩ => rfl)
  have h4 : ∀ j : Fin 128, ridx_main_v38 (ix2 r k) j = ix2 j k := fun j => funext fun a => Fin.ext (by match a with | ⟨0, _⟩ => rfl | ⟨1, _⟩ => rfl)
  have h5 : idx_main_v33 (idx_main_v34 (ix2 r k)) = ix1 k := funext fun a => Fin.ext (by match a with | ⟨0, _⟩ => rfl)
  simp only [h1, h2, h3, h4, h5, Ideal.addf_def]
  rfl

/-- The mean: the one entry of row `r` of the quotient by 128 is the mean of the affine row. The sum's initial word is zero. -/
theorem l1_mean (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (z : Fin 1) :
    val_main_v47 (F := Ideal) x0 x1 x3 x4 x5 (ix2 r z) = mean (fun j : Fin 128 => val_main_v39 (F := Ideal) x0 x1 x3 x4 x5 (ix2 r j)) := by
  rw [val_main_v47_apply, val_main_v45_apply, val_main_v44_apply, val_main_v46_apply, val_main_cst_8_apply, val_main_cst_7_apply]
  have h1 : ∀ j : Fin 128, idx_main_v44 (idx_main_v45 (ix2 r z)) j = ix2 r j := fun j => funext fun a => Fin.ext (by match a with | ⟨0, _⟩ => rfl | ⟨1, _⟩ => rfl)
  simp only [h1, Ideal.hostDivf_def, Ideal.ofBits_def, Ideal.ofBits_zero_f32, zero_add]
  rfl

/-- The row centred at its mean, as the variance reads it. -/
theorem l1_centredA (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (k : Fin 128) :
    val_main_v49 (F := Ideal) x0 x1 x3 x4 x5 (ix2 r k) = centred (fun j : Fin 128 => val_main_v39 (F := Ideal) x0 x1 x3 x4 x5 (ix2 r j)) k := by
  rw [val_main_v49_apply, val_main_v48_apply]
  have h1 : idx_main_v48 (ix2 r k) = ix2 r (0 : Fin 1) := funext fun a => Fin.ext (by match a with | ⟨0, _⟩ => rfl | ⟨1, _⟩ => rfl)
  rw [h1, l1_mean x0 x1 x3 x4 x5 x6 x7]
  rfl

/-- The row centred at its mean, as the normalised entry reads it. -/
theorem l1_centredB (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (k : Fin 128) :
    val_main_v56 (F := Ideal) x0 x1 x3 x4 x5 (ix2 r k) = centred (fun j : Fin 128 => val_main_v39 (F := Ideal) x0 x1 x3 x4 x5 (ix2 r j)) k := by
  rw [val_main_v56_apply, val_main_v55_apply]
  have h1 : idx_main_v55 (ix2 r k) = ix2 r (0 : Fin 1) := funext fun a => Fin.ext (by match a with | ⟨0, _⟩ => rfl | ⟨1, _⟩ => rfl)
  rw [h1, l1_mean x0 x1 x3 x4 x5 x6 x7]
  rfl

/-- The variance: the mean of the squares of the centred row. -/
theorem l1_var (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (z : Fin 1) :
    val_main_v54 (F := Ideal) x0 x1 x3 x4 x5 (ix2 r z) = mean (fun k : Fin 128 => centred (fun j : Fin 128 => val_main_v39 (F := Ideal) x0 x1 x3 x4 x5 (ix2 r j)) k * centred (fun j : Fin 128 => val_main_v39 (F := Ideal) x0 x1 x3 x4 x5 (ix2 r j)) k) := by
  rw [val_main_v54_apply, val_main_v52_apply, val_main_v51_apply, val_main_v53_apply, val_main_cst_10_apply, val_main_cst_9_apply]
  have h1 : ∀ j : Fin 128, idx_main_v51 (idx_main_v52 (ix2 r z)) j = ix2 r j := fun j => funext fun a => Fin.ext (by match a with | ⟨0, _⟩ => rfl | ⟨1, _⟩ => rfl)
  have e : ∀ j : Fin 128, val_main_v50 (F := Ideal) x0 x1 x3 x4 x5 (idx_main_v51 (idx_main_v52 (ix2 r z)) j) = centred (fun j : Fin 128 => val_main_v39 (F := Ideal) x0 x1 x3 x4 x5 (ix2 r j)) j * centred (fun j : Fin 128 => val_main_v39 (F := Ideal) x0 x1 x3 x4 x5 (ix2 r j)) j := fun j => by
    rw [h1 j, val_main_v50_apply, l1_centredA x0 x1 x3 x4 x5 x6 x7]
    rfl
  simp only [e, Ideal.hostDivf_def, Ideal.ofBits_def, Ideal.ofBits_zero_f32, zero_add]
  rfl

/-- One entry of the layer's result: the normalised, scaled and shifted entry, clamped below at the zero word. -/
theorem l1_norm (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (q : Fin 128) :
    val_main_v68 (F := Ideal) x0 x1 x3 x4 x5 x6 x7 (ix2 r q) = norm (fun j : Fin 128 => val_main_v39 (F := Ideal) x0 x1 x3 x4 x5 (ix2 r j)) (fun j : Fin 128 => val_main_v41 (F := Ideal) x6 (ix1 j)) (fun j : Fin 128 => val_main_v43 (F := Ideal) x7 (ix1 j)) q := by
  rw [val_main_v68_apply, val_main_v67_apply, val_main_v64_apply, val_main_v59_apply, val_main_v58_apply, val_main_v57_apply, val_main_v63_apply, val_main_v62_apply, val_main_v61_apply, val_main_v60_apply, val_main_cst_11_apply,
    val_main_v66_apply, val_main_v65_apply, val_main_call1_v0_apply, val_main_call1_cst_apply]
  have h1 : idx_main_v57 (idx_main_v58 (ix2 r q)) = ix1 q := funext fun a => Fin.ext (by match a with | ⟨0, _⟩ => rfl)
  have h2 : idx_main_v63 (ix2 r q) = ix2 r (0 : Fin 1) := funext fun a => Fin.ext (by match a with | ⟨0, _⟩ => rfl | ⟨1, _⟩ => rfl)
  have h3 : idx_main_v65 (idx_main_v66 (ix2 r q)) = ix1 q := funext fun a => Fin.ext (by match a with | ⟨0, _⟩ => rfl)
  rw [h1, h2, h3, l1_centredB x0 x1 x3 x4 x5 x6 x7, l1_var x0 x1 x3 x4 x5 x6 x7]
  rfl

theorem layer1 (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) :
    val_main_v68 (F := Ideal) x0 x1 x3 x4 x5 x6 x7
      = layer (val_main_v27 (F := Ideal) x0 x1) x0 (val_main_v29 (F := Ideal) x3) (val_main_v37 (F := Ideal) x5)
          (fun j : Fin 128 => val_main_v32 (F := Ideal) x4 (ix1 j)) (fun j : Fin 128 => val_main_v41 (F := Ideal) x6 (ix1 j)) (fun j : Fin 128 => val_main_v43 (F := Ideal) x7 (ix1 j)) := by
  funext i
  obtain ⟨r, q, rfl⟩ : ∃ (r : Fin 50000) (q : Fin 128), i = ix2 r q := ⟨i 0, i 1, eq_ix2 i⟩
  rw [layer_apply, l1_norm]
  unfold row
  exact congrArg (fun y : Fin 128 → EReal => norm y (fun j : Fin 128 => val_main_v41 (F := Ideal) x6 (ix1 j)) (fun j : Fin 128 => val_main_v43 (F := Ideal) x7 (ix1 j)) q) (funext fun k => l1_lin x0 x1 x3 x4 x5 x6 x7 r k)

/-! ## Layer 2 -/

/-- The affine part: entry `(r, k)` of the sum of the two products and the bias is `lin` of row `r`. -/
theorem l2_lin (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (k : Fin 128) :
    val_main_v92 (F := Ideal) x0 x1 x3 x4 x5 x6 x7 (ix2 r k)
      = lin (fun j : Fin 128 => val_main_v80 (F := Ideal) x0 x1 x3 x4 x5 x6 x7 (ix2 r j)) (fun j : Fin 128 => (val_main_v68 (F := Ideal) x0 x1 x3 x4 x5 x6 x7) (ix2 r j))
          (fun j q : Fin 128 => val_main_v82 (F := Ideal) x3 (ix2 j q)) (fun j q : Fin 128 => val_main_v90 (F := Ideal) x5 (ix2 j q)) (fun j : Fin 128 => val_main_v85 (F := Ideal) x4 (ix1 j)) k := by
  rw [val_main_v92_apply, val_main_v88_apply, val_main_v83_apply, val_main_v91_apply, val_main_v87_apply, val_main_v86_apply]
  have h1 : ∀ j : Fin 128, lidx_main_v83 (ix2 r k) j = ix2 r j := fun j => funext fun a => Fin.ext (by match a with | ⟨0, _⟩ => rfl | ⟨1, _⟩ => rfl)
  have h2 : ∀ j : Fin 128, ridx_main_v83 (ix2 r k) j = ix2 j k := fun j => funext fun a => Fin.ext (by match a with | ⟨0, _⟩ => rfl | ⟨1, _⟩ => rfl)
  have h3 : ∀ j : Fin 128, lidx_main_v91 (ix2 r k) j = ix2 r j := fun j => funext fun a => Fin.ext (by match a with | ⟨0, _⟩ => rfl | ⟨1, _⟩ => rfl)
  have h4 : ∀ j : Fin 128, ridx_main_v91 (ix2 r k) j = ix2 j k := fun j => funext fun a => Fin.ext (by match a with | ⟨0, _⟩ => rfl | ⟨1, _⟩ => rfl)
  have h5 : idx_main_v86 (idx_main_v87 (ix2 r k)) = ix1 k := funext fun a => Fin.ext (by match a with | ⟨0, _⟩ => rfl)
  simp only [h1, h2, h3, h4, h5, Ideal.addf_def]
  rfl

/-- The mean: the one entry of row `r` of the quotient by 128 is the mean of the affine row. The sum's initial word is zero. -/
theorem l2_mean (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (z : Fin 1) :
    val_main_v100 (F := Ideal) x0 x1 x3 x4 x5 x6 x7 (ix2 r z) = mean (fun j : Fin 128 => val_main_v92 (F := Ideal) x0 x1 x3 x4 x5 x6 x7 (ix2 r j)) := by
  rw [val_main_v100_apply, val_main_v98_apply, val_main_v97_apply, val_main_v99_apply, val_main_cst_16_apply, val_main_cst_15_apply]
  have h1 : ∀ j : Fin 128, idx_main_v97 (idx_main_v98 (ix2 r z)) j = ix2 r j := fun j => funext fun a => Fin.ext (by match a with | ⟨0, _⟩ => rfl | ⟨1, _⟩ => rfl)
  simp only [h1, Ideal.hostDivf_def, Ideal.ofBits_def, Ideal.ofBits_zero_f32, zero_add]
  rfl

/-- The row centred at its mean, as the variance reads it. -/
theorem l2_centredA (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (k : Fin 128) :
    val_main_v102 (F := Ideal) x0 x1 x3 x4 x5 x6 x7 (ix2 r k) = centred (fun j : Fin 128 => val_main_v92 (F := Ideal) x0 x1 x3 x4 x5 x6 x7 (ix2 r j)) k := by
  rw [val_main_v102_apply, val_main_v101_apply]
  have h1 : idx_main_v101 (ix2 r k) = ix2 r (0 : Fin 1) := funext fun a => Fin.ext (by match a with | ⟨0, _⟩ => rfl | ⟨1, _⟩ => rfl)
  rw [h1, l2_mean x0 x1 x3 x4 x5 x6 x7]
  rfl

/-- The row centred at its mean, as the normalised entry reads it. -/
theorem l2_centredB (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (k : Fin 128) :
    val_main_v109 (F := Ideal) x0 x1 x3 x4 x5 x6 x7 (ix2 r k) = centred (fun j : Fin 128 => val_main_v92 (F := Ideal) x0 x1 x3 x4 x5 x6 x7 (ix2 r j)) k := by
  rw [val_main_v109_apply, val_main_v108_apply]
  have h1 : idx_main_v108 (ix2 r k) = ix2 r (0 : Fin 1) := funext fun a => Fin.ext (by match a with | ⟨0, _⟩ => rfl | ⟨1, _⟩ => rfl)
  rw [h1, l2_mean x0 x1 x3 x4 x5 x6 x7]
  rfl

/-- The variance: the mean of the squares of the centred row. -/
theorem l2_var (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (z : Fin 1) :
    val_main_v107 (F := Ideal) x0 x1 x3 x4 x5 x6 x7 (ix2 r z) = mean (fun k : Fin 128 => centred (fun j : Fin 128 => val_main_v92 (F := Ideal) x0 x1 x3 x4 x5 x6 x7 (ix2 r j)) k * centred (fun j : Fin 128 => val_main_v92 (F := Ideal) x0 x1 x3 x4 x5 x6 x7 (ix2 r j)) k) := by
  rw [val_main_v107_apply, val_main_v105_apply, val_main_v104_apply, val_main_v106_apply, val_main_cst_18_apply, val_main_cst_17_apply]
  have h1 : ∀ j : Fin 128, idx_main_v104 (idx_main_v105 (ix2 r z)) j = ix2 r j := fun j => funext fun a => Fin.ext (by match a with | ⟨0, _⟩ => rfl | ⟨1, _⟩ => rfl)
  have e : ∀ j : Fin 128, val_main_v103 (F := Ideal) x0 x1 x3 x4 x5 x6 x7 (idx_main_v104 (idx_main_v105 (ix2 r z)) j) = centred (fun j : Fin 128 => val_main_v92 (F := Ideal) x0 x1 x3 x4 x5 x6 x7 (ix2 r j)) j * centred (fun j : Fin 128 => val_main_v92 (F := Ideal) x0 x1 x3 x4 x5 x6 x7 (ix2 r j)) j := fun j => by
    rw [h1 j, val_main_v103_apply, l2_centredA x0 x1 x3 x4 x5 x6 x7]
    rfl
  simp only [e, Ideal.hostDivf_def, Ideal.ofBits_def, Ideal.ofBits_zero_f32, zero_add]
  rfl

/-- One entry of the layer's result: the normalised, scaled and shifted entry, clamped below at the zero word. -/
theorem l2_norm (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) (r : Fin 50000) (q : Fin 128) :
    val_main_v121 (F := Ideal) x0 x1 x3 x4 x5 x6 x7 (ix2 r q) = norm (fun j : Fin 128 => val_main_v92 (F := Ideal) x0 x1 x3 x4 x5 x6 x7 (ix2 r j)) (fun j : Fin 128 => val_main_v94 (F := Ideal) x6 (ix1 j)) (fun j : Fin 128 => val_main_v96 (F := Ideal) x7 (ix1 j)) q := by
  rw [val_main_v121_apply, val_main_v120_apply, val_main_v117_apply, val_main_v112_apply, val_main_v111_apply, val_main_v110_apply, val_main_v116_apply, val_main_v115_apply, val_main_v114_apply, val_main_v113_apply, val_main_cst_19_apply,
    val_main_v119_apply, val_main_v118_apply, val_main_call2_v0_apply, val_main_call2_cst_apply]
  have h1 : idx_main_v110 (idx_main_v111 (ix2 r q)) = ix1 q := funext fun a => Fin.ext (by match a with | ⟨0, _⟩ => rfl)
  have h2 : idx_main_v116 (ix2 r q) = ix2 r (0 : Fin 1) := funext fun a => Fin.ext (by match a with | ⟨0, _⟩ => rfl | ⟨1, _⟩ => rfl)
  have h3 : idx_main_v118 (idx_main_v119 (ix2 r q)) = ix1 q := funext fun a => Fin.ext (by match a with | ⟨0, _⟩ => rfl)
  rw [h1, h2, h3, l2_centredB x0 x1 x3 x4 x5 x6 x7, l2_var x0 x1 x3 x4 x5 x6 x7]
  rfl

theorem layer2 (x0 : (⟨S50000x128, .f32⟩ : BufTy).Contents (Elt Ideal)) (x1 : (⟨S2x800000, .i32⟩ : BufTy).Contents (Elt Ideal)) (x3 : (⟨S2x128x128, .f32⟩ : BufTy).Contents (Elt Ideal)) (x4 : (⟨S2x128, .f32⟩ : BufTy).Contents (Elt Ideal)) (x5 : (⟨S2x128x128, .f32⟩ : BufTy).Contents (Elt Ideal)) (x6 x7 : (⟨S2x128, .f32⟩ : BufTy).Contents (Elt Ideal)) :
    val_main_v121 (F := Ideal) x0 x1 x3 x4 x5 x6 x7
      = layer (val_main_v80 (F := Ideal) x0 x1 x3 x4 x5 x6 x7) (val_main_v68 (F := Ideal) x0 x1 x3 x4 x5 x6 x7) (val_main_v82 (F := Ideal) x3) (val_main_v90 (F := Ideal) x5)
          (fun j : Fin 128 => val_main_v85 (F := Ideal) x4 (ix1 j)) (fun j : Fin 128 => val_main_v94 (F := Ideal) x6 (ix1 j)) (fun j : Fin 128 => val_main_v96 (F := Ideal) x7 (ix1 j)) := by
  funext i
  obtain ⟨r, q, rfl⟩ : ∃ (r : Fin 50000) (q : Fin 128), i = ix2 r q := ⟨i 0, i 1, eq_ix2 i⟩
  rw [layer_apply, l2_norm]
  unfold row
  exact congrArg (fun y : Fin 128 → EReal => norm y (fun j : Fin 128 => val_main_v94 (F := Ideal) x6 (ix1 j)) (fun j : Fin 128 => val_main_v96 (F := Ideal) x7 (ix1 j)) q) (funext fun k => l2_lin x0 x1 x3 x4 x5 x6 x7 r k)

end Cert.RefLayers

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KernelRow.lean ====
/-
  The body of the layer kernel read at one entry.

  The body loads a block of 2000 rows of the aggregated neighbours and of the nodes, the two 128 x 128 weight
  matrices, and the three rows of bias, scale and shift. Entry (p, q) of what it stores depends on row p of the
  two blocks only: it is the specification's row function of those two rows. Every step is one operation read
  at an index: a matrix product into a zero accumulator is the sum over the contracted coordinate, a lane sum is the
  sum over the row, the casts and broadcasts move no value, and the pointwise operations act entry by entry.
-/
import proofs.«176213_j90091234001075_1_alg».proof.Proof.Gen.KernelIdeal.Skeleton
import proofs.«176213_j90091234001075_1_alg».proof.Proof.LayerSpec
import proofs.«176213_j90091234001075_1_alg».proof.Proof.LibColumnLayout
import Idealize.ShloMosaic.Lib.ValueLayout
import Idealize.ShloMosaic.Lib.StackMember
import Idealize.ShloMosaic.Lib.KernelVsHost
import Idealize.ShloMosaic.PureOps.Ideal.Laws

noncomputable section

open scoped BigOperators

namespace Cert.KernelRow

open Idealize.ShloMosaic Idealize.ShloMosaic.ValueIdx Idealize.ShloMosaic.StackMember
open Cert.KernelIdeal Cert.KernelIdeal.Gen Cert.GraphLayer

/-- A plain matrix product of an [R, K] block by a [K, N] matrix into a zero accumulator, at entry (p, j): the sum
    over the contracted coordinate of the products of the entries. -/
theorem matmul0_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- The record the kernel's two products carry is the plain one. -/
theorem dot_plain : dot_S2000x128_S128x128_S2000x128_1_0_0_1_n_n = DotDims.plain 2000 128 128 := rfl

/-- The affine part of the body at entry (p, q): the neighbours' row through `wrel`, plus the bias, plus the node's
    row through `wroot`. The changes of format before the products move no value. -/
theorem affine_apply (a xr : FVec Ideal S2000x128 .f32) (wrel wroot : FVec Ideal S128x128 .f32) (b : FVec Ideal S1x128 .f32)
    (h1 h2 h3 h4 : FTy.bf16.bits < FTy.f32.bits) (hb : S1x128.Broadcasts S2000x128) (p : Fin 2000) (q : Fin 128) :
    addf (addf (matmul dot_S2000x128_S128x128_S2000x128_1_0_0_1_n_n none (truncf .bf16 a h1) (truncf .bf16 wrel h2)
            (constant (F := Ideal) S2000x128 .f32 0x00000000#32))
          (broadcastTo S2000x128 b hb))
        (matmul dot_S2000x128_S128x128_S2000x128_1_0_0_1_n_n none (truncf .bf16 xr h3) (truncf .bf16 wroot h4)
            (constant (F := Ideal) S2000x128 .f32 0x00000000#32)) (ix2 p q)
      = lin (fun k => a (ix2 p k)) (fun k => xr (ix2 p k)) (fun k q => wrel (ix2 k q)) (fun k q => wroot (ix2 k q))
          (fun q => b (ix2 0 q)) q := by
  rw [addf_apply, addf_apply, broadcastTo_1b_ab_apply,
    matmul0_apply _ dot_plain none (truncf .bf16 a h1) (truncf .bf16 wrel h2) p q,
    matmul0_apply _ dot_plain none (truncf .bf16 xr h3) (truncf .bf16 wroot h4) p q]
  rfl

/-- The lane sum of a block cast to a column, at (p, 0): the sum of row p. -/
theorem rowSum_apply (v : FVec Ideal S2000x128 .f32) (h : S2000x128.Reduces [1] S2000) (hφ : FKind.Formats .f32)
    (hacc : (0x00000000#32 : BitVec 32) = FKind.add.neutral .f32 hφ) (hc : S2000.ShapeCasts S2000x1)
    (p : Fin 2000) (u : Fin 1) :
    shapeCast S2000x1 (multiReduction .add [1] S2000 v 0x00000000#32 h hφ hacc) hc (ix2 p u) = ∑ k : Fin 128, v (ix2 p k) :=
  (PhysLoss.shapeCast_a_a1_apply _ hc p u).trans
    ((Ideal.multiReduction_add_single v 0x00000000#32 h hφ hacc (ix1 p)).trans
      (Finset.sum_congr rfl fun k _ => congrArg v (funext fun c => Fin.ext (by
        match c with
        | ⟨0, _⟩ => rfl
        | ⟨1, _⟩ => rfl))))

/-- The lane sum divided by the splat of the word of 128, as a column, at (p, 0): the mean of row p. -/
theorem meanCol_apply (v : FVec Ideal S2000x128 .f32) (h : S2000x128.Reduces [1] S2000) (hφ : FKind.Formats .f32)
    (hacc : (0x00000000#32 : BitVec 32) = FKind.add.neutral .f32 hφ) (hc : S2000.ShapeCasts S2000x1)
    (p : Fin 2000) (u : Fin 1) :
    divf (shapeCast S2000x1 (multiReduction .add [1] S2000 v 0x00000000#32 h hφ hacc) hc)
        (broadcast S2000x1 (Scalar.ofBits (F := Ideal) .f32 0x43000000#32)) (ix2 p u)
      = mean (fun k => v (ix2 p k)) :=
  congrArg (fun s => Ideal.div s w128) (rowSum_apply v h hφ hacc hc p u)

/-- A block minus the broadcast column of its rows' means, at (p, q): row p centred, at q. -/
theorem centre_apply (y : FVec Ideal S2000x128 .f32) (h : S2000x128.Reduces [1] S2000) (hφ : FKind.Formats .f32)
    (hacc : (0x00000000#32 : BitVec 32) = FKind.add.neutral .f32 hφ) (hc : S2000.ShapeCasts S2000x1)
    (hbc : S2000x1.Broadcasts S2000x128) (p : Fin 2000) (q : Fin 128) :
    subf y (broadcastTo S2000x128
        (divf (shapeCast S2000x1 (multiReduction .add [1] S2000 y 0x00000000#32 h hφ hacc) hc)
          (broadcast S2000x1 (Scalar.ofBits (F := Ideal) .f32 0x43000000#32))) hbc) (ix2 p q)
      = centred (fun k => y (ix2 p k)) q := by
  rw [subf_apply, PhysLoss.broadcastTo_a1_ab_apply, meanCol_apply]
  rfl

/-- The reciprocal root of the mean square of a centred block plus the word of epsilon, as a column, at (p, 0). -/
theorem rstd_apply (c : FVec Ideal S2000x128 .f32) (h : S2000x128.Reduces [1] S2000) (hφ : FKind.Formats .f32)
    (hacc : (0x00000000#32 : BitVec 32) = FKind.add.neutral .f32 hφ) (hc : S2000.ShapeCasts S2000x1)
    (p : Fin 2000) (u : Fin 1) :
    rsqrt (addf (divf (shapeCast S2000x1 (multiReduction .add [1] S2000 (mulf c c) 0x00000000#32 h hφ hacc) hc)
          (broadcast S2000x1 (Scalar.ofBits (F := Ideal) .f32 0x43000000#32)))
        (broadcast S2000x1 (Scalar.ofBits (F := Ideal) .f32 0x3727C5AC#32))) (ix2 p u)
      = Ideal.rsqrt (mean (fun k => c (ix2 p k) * c (ix2 p k)) + wEps) :=
  congrArg (fun m => Ideal.rsqrt (m + wEps)) (meanCol_apply (mulf c c) h hφ hacc hc p u)

/-- The last steps at (p, q): scale times the centred entry, times the row's reciprocal root, plus the shift, and the
    maximum with the splat of the zero word. -/
theorem scale_shift_relu_apply (c : FVec Ideal S2000x128 .f32) (g be : FVec Ideal S1x128 .f32) (rs : FVec Ideal S2000x1 .f32)
    (hb1 hb2 : S1x128.Broadcasts S2000x128) (hbc : S2000x1.Broadcasts S2000x128) (p : Fin 2000) (q : Fin 128) :
    maximumf (addf (mulf (mulf (broadcastTo S2000x128 g hb1) c) (broadcastTo S2000x128 rs hbc)) (broadcastTo S2000x128 be hb2))
        (broadcast S2000x128 (Scalar.ofBits (F := Ideal) .f32 0x00000000#32)) (ix2 p q)
      = max ((g (ix2 0 q) * c (ix2 p q)) * rs (ix2 p 0) + be (ix2 0 q)) w0 := by
  rw [maximumf_apply, addf_apply, mulf_apply, mulf_apply, broadcastTo_1b_ab_apply, broadcastTo_1b_ab_apply,
    PhysLoss.broadcastTo_a1_ab_apply]
  rfl

/-! ## The first launch's body -/

/-- The centred affine block of the first launch's body at (p, q). -/
theorem centred0_apply (a xr : Vec Ideal S2000x128 .f32) (wrel wroot : Vec Ideal S128x128 .f32) (b : Vec Ideal S1x128 .f32)
    (p : Fin 2000) (q : Fin 128) :
    k0_pay3 (F := Ideal) a xr wrel wroot b (ix2 p q)
      = centred (lin (fun k => a (ix2 p k)) (fun k => xr (ix2 p k)) (fun k q => wrel (ix2 k q)) (fun k q => wroot (ix2 k q))
          (fun q => b (ix2 0 q))) q := by
  unfold k0_pay3
  simp only [shapeCast_self]
  refine (centre_apply _ _ _ _ _ _ p q).trans ?_
  exact congrArg (fun y => centred y q) (funext fun k => affine_apply a xr wrel wroot b _ _ _ _ _ p k)

/-- What the first launch's body stores, at (p, q): the specification's row function of row p of the two blocks. -/
theorem body0_apply (a xr : Vec Ideal S2000x128 .f32) (wrel wroot : Vec Ideal S128x128 .f32) (b g be : Vec Ideal S1x128 .f32)
    (p : Fin 2000) (q : Fin 128) :
    k0_pay1 (F := Ideal) (k0_pay2 be) (k0_pay4 a xr wrel wroot b g) (k0_pay5 a xr wrel wroot b) (ix2 p q)
      = row (fun k => a (ix2 p k)) (fun k => xr (ix2 p k)) (fun k q => wrel (ix2 k q)) (fun k q => wroot (ix2 k q))
          (fun q => b (ix2 0 q)) (fun q => g (ix2 0 q)) (fun q => be (ix2 0 q)) q := by
  unfold k0_pay1 k0_pay2 k0_pay4 k0_pay5
  simp only [shapeCast_self]
  refine (scale_shift_relu_apply _ _ _ _ _ _ _ p q).trans ?_
  refine (congrArg (fun r => max ((g (ix2 0 q) * k0_pay3 (F := Ideal) a xr wrel wroot b (ix2 p q)) * r + be (ix2 0 q)) w0)
    (rstd_apply _ _ _ _ _ p 0)).trans ?_
  simp only [centred0_apply]
  rfl

/-! ## The second launch's body: the same operations, cut into payloads one operation later -/

/-- The centred affine block of the second launch's body at (p, q). -/
theorem centred1_apply (a xr : Vec Ideal S2000x128 .f32) (wrel wroot : Vec Ideal S128x128 .f32) (b : Vec Ideal S1x128 .f32)
    (p : Fin 2000) (q : Fin 128) :
    k1_pay3 (F := Ideal) a xr wrel wroot b (ix2 p q)
      = centred (lin (fun k => a (ix2 p k)) (fun k => xr (ix2 p k)) (fun k q => wrel (ix2 k q)) (fun k q => wroot (ix2 k q))
          (fun q => b (ix2 0 q))) q := by
  unfold k1_pay3
  simp only [shapeCast_self]
  refine (centre_apply _ _ _ _ _ _ p q).trans ?_
  exact congrArg (fun y => centred y q) (funext fun k => affine_apply a xr wrel wroot b _ _ _ _ _ p k)

/-- What the second launch's body stores, at (p, q): the specification's row function of row p of the two blocks. -/
theorem body1_apply (a xr : Vec Ideal S2000x128 .f32) (wrel wroot : Vec Ideal S128x128 .f32) (b g be : Vec Ideal S1x128 .f32)
    (p : Fin 2000) (q : Fin 128) :
    k1_pay1 (F := Ideal) (k1_pay2 be) (k1_pay4 a xr wrel wroot b g) (k1_pay5 a xr wrel wroot b) (ix2 p q)
      = row (fun k => a (ix2 p k)) (fun k => xr (ix2 p k)) (fun k q => wrel (ix2 k q)) (fun k q => wroot (ix2 k q))
          (fun q => b (ix2 0 q)) (fun q => g (ix2 0 q)) (fun q => be (ix2 0 q)) q := by
  unfold k1_pay1 k1_pay2 k1_pay4 k1_pay5
  simp only [shapeCast_self]
  refine (scale_shift_relu_apply _ _ _ _ _ _ _ p q).trans ?_
  refine (congrArg (fun r => max ((g (ix2 0 q) * k1_pay3 (F := Ideal) a xr wrel wroot b (ix2 p q)) * r + be (ix2 0 q)) w0)
    (rstd_apply _ _ _ _ _ p 0)).trans ?_
  simp only [centred1_apply]
  rfl

end Cert.KernelRow

end
-- ==== Proof.KernelRegions.lean ====
/-
  Each launch of the layer kernel leaves, in its output array, the layer of the arrays it was launched on.

  A launch runs the body at 25 grid points. At point t the two row-blocked operands and the output stage rows
  2000 t ... 2000 t + 1999 (all 128 columns); the weights, the bias, the scale and the shift are staged whole at every
  point. The body's entry (p, q) depends on row p of the two row blocks only, so what point t writes back is rows
  2000 t ... of one whole-array function, the layer; the 25 blocks tile the 50000 rows (row r lies in the block of
  point r / 2000), so the output array ends holding the layer everywhere.
-/
import proofs.«176213_j90091234001075_1_alg».proof.Proof.Gen.KernelIdeal.Frame
import proofs.«176213_j90091234001075_1_alg».proof.Proof.LayerSpec
import proofs.«176213_j90091234001075_1_alg».proof.Proof.KernelRow
import Idealize.ShloMosaic.Lib.Pipeline.Value

noncomputable section

namespace Cert.KernelRegion

open Idealize.ShloMosaic Idealize.ShloMosaic.TcCoe Idealize.SL.Sem Idealize.ShloMosaic.ValueIdx
open Idealize.ShloMosaic.Pipeline (Dat)
open Cert.KernelIdeal Cert.KernelIdeal.Gen Cert.GraphLayer Cert.KernelRow

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## Launch 0 -/

/-- The printed index maps of launch 0, decided over its 25 points: the row-blocked windows 0, 1 and 7 sit at block
    (t, 0), the whole-array windows 2 to 6 at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row p of window 0's block at point t is row 2000 t + p of its array. -/
theorem blk0_0_apply (c : Dev nD) (t : Fin cfg0.N) (p : Fin 2000) (k : Fin 128) (r : Fin 50000)
    (hr : r.val = t.val * 2000 + p.val) :
    (iblk0 V c 0 t : Vec Ideal S2000x128 .f32) (ix2 p k) = (V c main_v27 : S50000x128.Idx → EReal) (ix2 r k) := by
  obtain ⟨⟨e0, e1⟩, -⟩ := idx0 t
  show (V c main_v27 : S50000x128.Idx → EReal) (((cfg0.win 0).blk t).view.emb (ix2 p k)) = _
  refine congrArg (V c main_v27 : S50000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Row p of window 1's block at point t is row 2000 t + p of its array. -/
theorem blk0_1_apply (c : Dev nD) (t : Fin cfg0.N) (p : Fin 2000) (k : Fin 128) (r : Fin 50000)
    (hr : r.val = t.val * 2000 + p.val) :
    (iblk0 V c 1 t : Vec Ideal S2000x128 .f32) (ix2 p k) = (V c main_arg0 : S50000x128.Idx → EReal) (ix2 r k) := by
  obtain ⟨-, ⟨e0, e1⟩, -⟩ := idx0 t
  show (V c main_arg0 : S50000x128.Idx → EReal) (((cfg0.win 1).blk t).view.emb (ix2 p k)) = _
  refine congrArg (V c main_arg0 : S50000x128.Idx → EReal) (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Window 2's block at every point is its whole array. -/
theorem blk0_2_apply (c : Dev nD) (t : Fin cfg0.N) (k q : Fin 128) :
    (iblk0 V c 2 t : Vec Ideal S128x128 .f32) (ix2 k q) = (V c main_v29 : S128x128.Idx → EReal) (ix2 k q) := by
  obtain ⟨-, -, ⟨e0, e1⟩, -⟩ := idx0 t
  show (V c main_v29 : S128x128.Idx → EReal) (((cfg0.win 2).blk t).view.emb (ix2 k q)) = _
  refine congrArg (V c main_v29 : S128x128.Idx → EReal) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Window 4's block at every point is its whole array. -/
theorem blk0_4_apply (c : Dev nD) (t : Fin cfg0.N) (k q : Fin 128) :
    (iblk0 V c 4 t : Vec Ideal S128x128 .f32) (ix2 k q) = (V c main_v33 : S128x128.Idx → EReal) (ix2 k q) := by
  obtain ⟨-, -, -, -, ⟨e0, e1⟩, -⟩ := idx0 t
  show (V c main_v33 : S128x128.Idx → EReal) (((cfg0.win 4).blk t).view.emb (ix2 k q)) = _
  refine congrArg (V c main_v33 : S128x128.Idx → EReal) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Window 3's block at every point is its whole one-row array. -/
theorem blk0_3_apply (c : Dev nD) (t : Fin cfg0.N) (u : Fin 1) (q : Fin 128) :
    (iblk0 V c 3 t : Vec Ideal S1x128 .f32) (ix2 u q) = (V c main_v38 : S1x128.Idx → EReal) (ix2 u q) := by
  obtain ⟨-, -, -, ⟨e0, e1⟩, -⟩ := idx0 t
  show (V c main_v38 : S1x128.Idx → EReal) (((cfg0.win 3).blk t).view.emb (ix2 u q)) = _
  refine congrArg (V c main_v38 : S1x128.Idx → EReal) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

/-- Window 5's block at every point is its whole one-row array. -/
theorem blk0_5_apply (c : Dev nD) (t : Fin cfg0.N) (u : Fin 1) (q : Fin 128) :
    (iblk0 V c 5 t : Vec Ideal S1x128 .f32) (ix2 u q) = (V c main_v39 : S1x128.Idx → EReal) (ix2 u q) := by
  obtain ⟨-, -, -, -, -, ⟨e0, e1⟩, -⟩ := idx0 t
  show (V c main_v39 : S1x128.Idx → EReal) (((cfg0.win 5).blk t).view.emb (ix2 u q)) = _
  refine congrArg (V c main_v39 : S1x128.Idx → EReal) (funext fun a => Fin.ext ?_)
  match a with
  | ⟨0, _⟩ => show win0_5.index t (0 : Fin 2) * 1 + 1 * u.val = u.val; omega
  | ⟨1, _⟩ => show win0_5.index t (1 : Fin 2) * 128 + 1 * q.val = q.val; omega

/-- Window 6's block at every point is its whole one-row array. -/
theorem blk0_6_apply (c : Dev nD) (t : Fin cfg0.N) (u : Fin 1) (q : Fin 128) :
    (iblk0 V c 6 t : Vec Ideal S1x128 .f32) (ix2 u q) = (V c main_v40 : S1x128.Idx → EReal) (ix2 u q) := by
  obtain ⟨-, -, -, -, -, -, ⟨e0, e1⟩, -⟩ := idx0 t
  show (V c main_v40 : S1x128.Idx → EReal) (((cfg0.win 6).blk t).view.emb (ix2 u q)) = _
  refine congrArg (V c main_v40 : S1x128.Idx → EReal) (funext fun a => Fin.ext ?_)
  match a with
  | ⟨0, _⟩ => show win0_6.index t (0 : Fin 2) * 1 + 1 * u.val = u.val; omega
  | ⟨1, _⟩ => show win0_6.index t (1 : Fin 2) * 128 + 1 * q.val = q.val; omega

/-- The layer of the arrays launch 0 is entered with. -/
abbrev L0 (c : Dev nD) : S50000x128.Idx → EReal :=
  layer (V c main_v27) (V c main_arg0) (V c main_v29) (V c main_v33)
    (fun q => V c main_v38 (ix2 (n0 := 1) (n1 := 128) 0 q)) (fun q => V c main_v39 (ix2 (n0 := 1) (n1 := 128) 0 q))
    (fun q => V c main_v40 (ix2 (n0 := 1) (n1 := 128) 0 q))

/-- What point t writes back is block t of the layer: the body's entry (p, q) is the row function of row p of the
    two row blocks, which are rows 2000 t + p of the arrays, and of the whole weights and rows. -/
theorem flushed0_eq (c : Dev nD) (t : Fin cfg0.N) :
    (dat0 (F := Ideal) V c).flushed 7 t = ((cfg0.win 7).blk t).view.read (Elt Ideal) (L0 V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S128x128) hz, View.ld_unit_zero (S := S1x128) hz]
  obtain ⟨-, -, -, -, -, -, -, ⟨e0, e1⟩⟩ := idx0 t
  have hN : cfg0.N = 25 := N_0
  have ht : t.val < 25 := hN ▸ t.isLt
  funext j
  obtain ⟨p, q, rfl⟩ : ∃ (p : Fin 2000) (q : Fin 128), j = (ix2 p q : S2000x128.Idx) := ⟨j 0, j 1, eq_ix2 j⟩
  have hr : t.val * 2000 + p.val < 50000 := by have := p.isLt; omega
  have hemb : ((cfg0.win 7).blk t).view.emb (ix2 p q : S2000x128.Idx) = (ix2 (⟨t.val * 2000 + p.val, hr⟩ : Fin 50000) q : S50000x128.Idx) := by
    funext a; apply Fin.ext
    match a with
    | ⟨0, _⟩ => show win0_7.index t (0 : Fin 2) * 2000 + 1 * p.val = t.val * 2000 + p.val; omega
    | ⟨1, _⟩ => show win0_7.index t (1 : Fin 2) * 128 + 1 * q.val = q.val; omega
  show k0_pay1 (F := Ideal) (k0_pay2 (iblk0 V c 6 t)) (k0_pay4 (iblk0 V c 0 t) (iblk0 V c 1 t) (iblk0 V c 2 t) (iblk0 V c 4 t) (iblk0 V c 3 t) (iblk0 V c 5 t))
      (k0_pay5 (iblk0 V c 0 t) (iblk0 V c 1 t) (iblk0 V c 2 t) (iblk0 V c 4 t) (iblk0 V c 3 t)) (ix2 p q)
    = L0 V c (((cfg0.win 7).blk t).view.emb (ix2 p q : S2000x128.Idx))
  rw [hemb]
  refine (body0_apply (iblk0 V c 0 t) (iblk0 V c 1 t) (iblk0 V c 2 t) (iblk0 V c 4 t) (iblk0 V c 3 t) (iblk0 V c 5 t) (iblk0 V c 6 t) p q).trans ?_
  refine ((layer_apply (V c main_v27) (V c main_arg0) (V c main_v29) (V c main_v33) _ _ _ ⟨t.val * 2000 + p.val, hr⟩ q).trans ?_).symm
  have h0 : (fun k : Fin 128 => (V c main_v27 : S50000x128.Idx → EReal) (ix2 (⟨t.val * 2000 + p.val, hr⟩ : Fin 50000) k))
      = fun k => (iblk0 V c 0 t : Vec Ideal S2000x128 .f32) (ix2 p k) :=
    funext fun k => (blk0_0_apply V c t p k _ rfl).symm
  have h1 : (fun k : Fin 128 => (V c main_arg0 : S50000x128.Idx → EReal) (ix2 (⟨t.val * 2000 + p.val, hr⟩ : Fin 50000) k))
      = fun k => (iblk0 V c 1 t : Vec Ideal S2000x128 .f32) (ix2 p k) :=
    funext fun k => (blk0_1_apply V c t p k _ rfl).symm
  have h2 : (fun k q : Fin 128 => (V c main_v29 : S128x128.Idx → EReal) (ix2 k q))
      = fun k q => (iblk0 V c 2 t : Vec Ideal S128x128 .f32) (ix2 k q) :=
    funext fun k => funext fun q => (blk0_2_apply V c t k q).symm
  have h4 : (fun k q : Fin 128 => (V c main_v33 : S128x128.Idx → EReal) (ix2 k q))
      = fun k q => (iblk0 V c 4 t : Vec Ideal S128x128 .f32) (ix2 k q) :=
    funext fun k => funext fun q => (blk0_4_apply V c t k q).symm
  have h3 : (fun q : Fin 128 => (V c main_v38 : S1x128.Idx → EReal) (ix2 (n0 := 1) (n1 := 128) 0 q))
      = fun q => (iblk0 V c 3 t : Vec Ideal S1x128 .f32) (ix2 0 q) :=
    funext fun q => (blk0_3_apply V c t 0 q).symm
  have h5 : (fun q : Fin 128 => (V c main_v39 : S1x128.Idx → EReal) (ix2 (n0 := 1) (n1 := 128) 0 q))
      = fun q => (iblk0 V c 5 t : Vec Ideal S1x128 .f32) (ix2 0 q) :=
    funext fun q => (blk0_5_apply V c t 0 q).symm
  have h6 : (fun q : Fin 128 => (V c main_v40 : S1x128.Idx → EReal) (ix2 (n0 := 1) (n1 := 128) 0 q))
      = fun q => (iblk0 V c 6 t : Vec Ideal S1x128 .f32) (ix2 0 q) :=
    funext fun q => (blk0_6_apply V c t 0 q).symm
  rw [h0, h1, h2, h4, h3, h5, h6]

/-- An index of the output array is in point t's block iff each coordinate is in the block's range on its axis. -/
theorem mem_blk0 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v41).slice (win0_7.rect t)).set ↔ _
  rw [View.set_slice_whole, Rect.mem_set_unit]
  exact Iff.rfl

/-- Every index of the output array is in some point's block: row r in the block of point r / 2000. -/
theorem cover0 (i : S50000x128.Idx) :
    ∃ t : Fin cfg0.N, (cfg0.win 7).flush t = true ∧ i ∈ ((cfg0.win 7).blk t).view.set := by
  have hN : cfg0.N = 25 := N_0
  have hi0 : (i 0).val < 50000 := (i 0).isLt
  have hi1 : (i 1).val < 128 := (i 1).isLt
  have ht : (i 0).val / 2000 < cfg0.N := by rw [hN]; omega
  obtain ⟨-, -, -, -, -, -, -, ⟨e0, e1⟩⟩ := idx0 ⟨(i 0).val / 2000, ht⟩
  refine ⟨⟨(i 0).val / 2000, ht⟩, flush0_7 _, ?_⟩
  rw [mem_blk0]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 128 ≤ (i 1).val
      ∧ (i 1).val < win0_7.index ⟨(i 0).val / 2000, ht⟩ (1 : Fin 2) * 128 + 128
    rw [e1]; omega

/-- The output array of launch 0 after its last point is the layer of the arrays it was entered with. -/
theorem out0 (c : Dev nD) :
    (dat0 (F := Ideal) V c).arrAt 7 cfg0.N
      = layer (V c main_v27) (V c main_arg0) (V c main_v29) (V c main_v33)
          (fun q => V c main_v38 (ix2 (n0 := 1) (n1 := 128) 0 q)) (fun q => V c main_v39 (ix2 (n0 := 1) (n1 := 128) 0 q))
          (fun q => V c main_v40 (ix2 (n0 := 1) (n1 := 128) 0 q)) :=
  (dat0 (F := Ideal) V c).arrAt_eq_of_cover 7 (L0 V c) (fun t _ => flushed0_eq V c t) (cover0)

/-! ## Launch 1 -/

/-- The printed index maps of launch 1, decided over its 25 points: the row-blocked windows 0, 1 and 7 sit at block
    (t, 0), the whole-array windows 2 to 6 at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row p of window 0's block at point t is row 2000 t + p of its array. -/
theorem blk1_0_apply (c : Dev nD) (t : Fin cfg1.N) (p : Fin 2000) (k : Fin 128) (r : Fin 50000)
    (hr : r.val = t.val * 2000 + p.val) :
    (iblk1 V c 0 t : Vec Ideal S2000x128 .f32) (ix2 p k) = (V c main_v53 : S50000x128.Idx → EReal) (ix2 r k) := by
  obtain ⟨⟨e0, e1⟩, -⟩ := idx1 t
  show (V c main_v53 : S50000x128.Idx → EReal) (((cfg1.win 0).blk t).view.emb (ix2 p k)) = _
  refine congrArg (V c main_v53 : S50000x128.Idx → EReal) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Row p of window 1's block at point t is row 2000 t + p of its array. -/
theorem blk1_1_apply (c : Dev nD) (t : Fin cfg1.N) (p : Fin 2000) (k : Fin 128) (r : Fin 50000)
    (hr : r.val = t.val * 2000 + p.val) :
    (iblk1 V c 1 t : Vec Ideal S2000x128 .f32) (ix2 p k) = (V c main_v41 : S50000x128.Idx → EReal) (ix2 r k) := by
  obtain ⟨-, ⟨e0, e1⟩, -⟩ := idx1 t
  show (V c main_v41 : S50000x128.Idx → EReal) (((cfg1.win 1).blk t).view.emb (ix2 p k)) = _
  refine congrArg (V c main_v41 : S50000x128.Idx → EReal) (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- Window 2's block at every point is its whole array. -/
theorem blk1_2_apply (c : Dev nD) (t : Fin cfg1.N) (k q : Fin 128) :
    (iblk1 V c 2 t : Vec Ideal S128x128 .f32) (ix2 k q) = (V c main_v55 : S128x128.Idx → EReal) (ix2 k q) := by
  obtain ⟨-, -, ⟨e0, e1⟩, -⟩ := idx1 t
  show (V c main_v55 : S128x128.Idx → EReal) (((cfg1.win 2).blk t).view.emb (ix2 k q)) = _
  refine congrArg (V c main_v55 : S128x128.Idx → EReal) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Window 4's block at every point is its whole array. -/
theorem blk1_4_apply (c : Dev nD) (t : Fin cfg1.N) (k q : Fin 128) :
    (iblk1 V c 4 t : Vec Ideal S128x128 .f32) (ix2 k q) = (V c main_v59 : S128x128.Idx → EReal) (ix2 k q) := by
  obtain ⟨-, -, -, -, ⟨e0, e1⟩, -⟩ := idx1 t
  show (V c main_v59 : S128x128.Idx → EReal) (((cfg1.win 4).blk t).view.emb (ix2 k q)) = _
  refine congrArg (V c main_v59 : S128x128.Idx → EReal) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Window 3's block at every point is its whole one-row array. -/
theorem blk1_3_apply (c : Dev nD) (t : Fin cfg1.N) (u : Fin 1) (q : Fin 128) :
    (iblk1 V c 3 t : Vec Ideal S1x128 .f32) (ix2 u q) = (V c main_v64 : S1x128.Idx → EReal) (ix2 u q) := by
  obtain ⟨-, -, -, ⟨e0, e1⟩, -⟩ := idx1 t
  show (V c main_v64 : S1x128.Idx → EReal) (((cfg1.win 3).blk t).view.emb (ix2 u q)) = _
  refine congrArg (V c main_v64 : S1x128.Idx → EReal) (funext fun a => Fin.ext ?_)
  match a with
  | ⟨0, _⟩ => show win1_3.index t (0 : Fin 2) * 1 + 1 * u.val = u.val; omega
  | ⟨1, _⟩ => show win1_3.index t (1 : Fin 2) * 128 + 1 * q.val = q.val; omega

/-- Window 5's block at every point is its whole one-row array. -/
theorem blk1_5_apply (c : Dev nD) (t : Fin cfg1.N) (u : Fin 1) (q : Fin 128) :
    (iblk1 V c 5 t : Vec Ideal S1x128 .f32) (ix2 u q) = (V c main_v65 : S1x128.Idx → EReal) (ix2 u q) := by
  obtain ⟨-, -, -, -, -, ⟨e0, e1⟩, -⟩ := idx1 t
  show (V c main_v65 : S1x128.Idx → EReal) (((cfg1.win 5).blk t).view.emb (ix2 u q)) = _
  refine congrArg (V c main_v65 : S1x128.Idx → EReal) (funext fun a => Fin.ext ?_)
  match a with
  | ⟨0, _⟩ => show win1_5.index t (0 : Fin 2) * 1 + 1 * u.val = u.val; omega
  | ⟨1, _⟩ => show win1_5.index t (1 : Fin 2) * 128 + 1 * q.val = q.val; omega

/-- Window 6's block at every point is its whole one-row array. -/
theorem blk1_6_apply (c : Dev nD) (t : Fin cfg1.N) (u : Fin 1) (q : Fin 128) :
    (iblk1 V c 6 t : Vec Ideal S1x128 .f32) (ix2 u q) = (V c main_v66 : S1x128.Idx → EReal) (ix2 u q) := by
  obtain ⟨-, -, -, -, -, -, ⟨e0, e1⟩, -⟩ := idx1 t
  show (V c main_v66 : S1x128.Idx → EReal) (((cfg1.win 6).blk t).view.emb (ix2 u q)) = _
  refine congrArg (V c main_v66 : S1x128.Idx → EReal) (funext fun a => Fin.ext ?_)
  match a with
  | ⟨0, _⟩ => show win1_6.index t (0 : Fin 2) * 1 + 1 * u.val = u.val; omega
  | ⟨1, _⟩ => show win1_6.index t (1 : Fin 2) * 128 + 1 * q.val = q.val; omega

/-- The layer of the arrays launch 1 is entered with. -/
abbrev L1 (c : Dev nD) : S50000x128.Idx → EReal :=
  layer (V c main_v53) (V c main_v41) (V c main_v55) (V c main_v59)
    (fun q => V c main_v64 (ix2 (n0 := 1) (n1 := 128) 0 q)) (fun q => V c main_v65 (ix2 (n0 := 1) (n1 := 128) 0 q))
    (fun q => V c main_v66 (ix2 (n0 := 1) (n1 := 128) 0 q))

/-- What point t writes back is block t of the layer: the body's entry (p, q) is the row function of row p of the
    two row blocks, which are rows 2000 t + p of the arrays, and of the whole weights and rows. -/
theorem flushed1_eq (c : Dev nD) (t : Fin cfg1.N) :
    (dat1 (F := Ideal) V c).flushed 7 t = ((cfg1.win 7).blk t).view.read (Elt Ideal) (L1 V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  obtain ⟨-, -, -, -, -, -, -, ⟨e0, e1⟩⟩ := idx1 t
  have hN : cfg1.N = 25 := N_1
  have ht : t.val < 25 := hN ▸ t.isLt
  funext j
  obtain ⟨p, q, rfl⟩ : ∃ (p : Fin 2000) (q : Fin 128), j = (ix2 p q : S2000x128.Idx) := ⟨j 0, j 1, eq_ix2 j⟩
  have hr : t.val * 2000 + p.val < 50000 := by have := p.isLt; omega
  have hemb : ((cfg1.win 7).blk t).view.emb (ix2 p q : S2000x128.Idx) = (ix2 (⟨t.val * 2000 + p.val, hr⟩ : Fin 50000) q : S50000x128.Idx) := by
    funext a; apply Fin.ext
    match a with
    | ⟨0, _⟩ => show win1_7.index t (0 : Fin 2) * 2000 + 1 * p.val = t.val * 2000 + p.val; omega
    | ⟨1, _⟩ => show win1_7.index t (1 : Fin 2) * 128 + 1 * q.val = q.val; omega
  show k1_pay1 (F := Ideal) (k1_pay2 (iblk1 V c 6 t)) (k1_pay4 (iblk1 V c 0 t) (iblk1 V c 1 t) (iblk1 V c 2 t) (iblk1 V c 4 t) (iblk1 V c 3 t) (iblk1 V c 5 t))
      (k1_pay5 (iblk1 V c 0 t) (iblk1 V c 1 t) (iblk1 V c 2 t) (iblk1 V c 4 t) (iblk1 V c 3 t)) (ix2 p q)
    = L1 V c (((cfg1.win 7).blk t).view.emb (ix2 p q : S2000x128.Idx))
  rw [hemb]
  refine (body1_apply (iblk1 V c 0 t) (iblk1 V c 1 t) (iblk1 V c 2 t) (iblk1 V c 4 t) (iblk1 V c 3 t) (iblk1 V c 5 t) (iblk1 V c 6 t) p q).trans ?_
  refine ((layer_apply (V c main_v53) (V c main_v41) (V c main_v55) (V c main_v59) _ _ _ ⟨t.val * 2000 + p.val, hr⟩ q).trans ?_).symm
  have h0 : (fun k : Fin 128 => (V c main_v53 : S50000x128.Idx → EReal) (ix2 (⟨t.val * 2000 + p.val, hr⟩ : Fin 50000) k))
      = fun k => (iblk1 V c 0 t : Vec Ideal S2000x128 .f32) (ix2 p k) :=
    funext fun k => (blk1_0_apply V c t p k _ rfl).symm
  have h1 : (fun k : Fin 128 => (V c main_v41 : S50000x128.Idx → EReal) (ix2 (⟨t.val * 2000 + p.val, hr⟩ : Fin 50000) k))
      = fun k => (iblk1 V c 1 t : Vec Ideal S2000x128 .f32) (ix2 p k) :=
    funext fun k => (blk1_1_apply V c t p k _ rfl).symm
  have h2 : (fun k q : Fin 128 => (V c main_v55 : S128x128.Idx → EReal) (ix2 k q))
      = fun k q => (iblk1 V c 2 t : Vec Ideal S128x128 .f32) (ix2 k q) :=
    funext fun k => funext fun q => (blk1_2_apply V c t k q).symm
  have h4 : (fun k q : Fin 128 => (V c main_v59 : S128x128.Idx → EReal) (ix2 k q))
      = fun k q => (iblk1 V c 4 t : Vec Ideal S128x128 .f32) (ix2 k q) :=
    funext fun k => funext fun q => (blk1_4_apply V c t k q).symm
  have h3 : (fun q : Fin 128 => (V c main_v64 : S1x128.Idx → EReal) (ix2 (n0 := 1) (n1 := 128) 0 q))
      = fun q => (iblk1 V c 3 t : Vec Ideal S1x128 .f32) (ix2 0 q) :=
    funext fun q => (blk1_3_apply V c t 0 q).symm
  have h5 : (fun q : Fin 128 => (V c main_v65 : S1x128.Idx → EReal) (ix2 (n0 := 1) (n1 := 128) 0 q))
      = fun q => (iblk1 V c 5 t : Vec Ideal S1x128 .f32) (ix2 0 q) :=
    funext fun q => (blk1_5_apply V c t 0 q).symm
  have h6 : (fun q : Fin 128 => (V c main_v66 : S1x128.Idx → EReal) (ix2 (n0 := 1) (n1 := 128) 0 q))
      = fun q => (iblk1 V c 6 t : Vec Ideal S1x128 .f32) (ix2 0 q) :=
    funext fun q => (blk1_6_apply V c t 0 q).symm
  rw [h0, h1, h2, h4, h3, h5, h6]

/-- An index of the output array is in point t's block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v67).slice (win1_7.rect t)).set ↔ _
  rw [View.set_slice_whole, Rect.mem_set_unit]
  exact Iff.rfl

/-- Every index of the output array is in some point's block: row r in the block of point r / 2000. -/
theorem cover1 (i : S50000x128.Idx) :
    ∃ t : Fin cfg1.N, (cfg1.win 7).flush t = true ∧ i ∈ ((cfg1.win 7).blk t).view.set := by
  have hN : cfg1.N = 25 := N_1
  have hi0 : (i 0).val < 50000 := (i 0).isLt
  have hi1 : (i 1).val < 128 := (i 1).isLt
  have ht : (i 0).val / 2000 < cfg1.N := by rw [hN]; omega
  obtain ⟨-, -, -, -, -, -, -, ⟨e0, e1⟩⟩ := idx1 ⟨(i 0).val / 2000, ht⟩
  refine ⟨⟨(i 0).val / 2000, ht⟩, flush1_7 _, ?_⟩
  rw [mem_blk1]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    rw [e1]; omega

/-- The output array of launch 1 after its last point is the layer of the arrays it was entered with. -/
theorem out1 (c : Dev nD) :
    (dat1 (F := Ideal) V c).arrAt 7 cfg1.N
      = layer (V c main_v53) (V c main_v41) (V c main_v55) (V c main_v59)
          (fun q => V c main_v64 (ix2 (n0 := 1) (n1 := 128) 0 q)) (fun q => V c main_v65 (ix2 (n0 := 1) (n1 := 128) 0 q))
          (fun q => V c main_v66 (ix2 (n0 := 1) (n1 := 128) 0 q)) :=
  (dat1 (F := Ideal) V c).arrAt_eq_of_cover 7 (L1 V c) (fun t _ => flushed1_eq V c t) (cover1)

end Cert.KernelRegion

end
-- ==== Proof.KernelHost.lean ====
/-
  The host operations of the kernel program compute the reference program's stages.

  Between and around its two regions the kernel program runs five stretches of array operations on the host: the edge
  lists and the reciprocal in-degree; the aggregated neighbour rows and the weights of the first layer; the same for the
  second layer, from the first layer's output; and, after the second region, the per-graph mean and the output layer.
  Operation for operation these are the reference program's own operations, so each buffer a stretch writes holds the
  reference's stage of the same name applied to the program's arguments, provided the buffers the stretch reads hold
  theirs; a buffer no operation of a stretch writes keeps its contents. Every statement is for an arbitrary valuation
  of the buffers at the start of the stretch and for an arbitrary float instance: no float operation is evaluated,
  a stage is unfolded to its operation applied to its operands' stages and compared with the stretch's term.
  The bias, scale and shift rows reach the regions reshaped from 128 entries to one row of 128; read at `(0, q)` such a
  row is the vector at `q`.
-/
import proofs.«176213_j90091234001075_1_alg».proof.Proof.Gen.KernelIdeal.Frame
import proofs.«176213_j90091234001075_1_alg».proof.Proof.RefRead
import Idealize.ShloMosaic.Lib.ValueLayout

noncomputable section
namespace Cert.KernelHost
open Cert.KernelIdeal Cert.KernelIdeal.Gen Cert.ReferenceIdeal.Read
open Idealize.ShloMosaic Idealize.ShloMosaic.TcCoe Idealize.SL.Sem Idealize.ShloMosaic.StableHlo Idealize.ShloMosaic.ValueIdx

variable {F : FTy → Type} [FloatOps F] (U : Valuation τ sig (Elt F))

/-! ## The first stretch: the edge lists, the in-degree and its reciprocal -/

theorem s0_src (x1 : (⟨Cert.ReferenceIdeal.S2x800000, .i32⟩ : BufTy).Contents (Elt F)) (h : U (Proc.devRef .tc main_arg1) = x1) :
    after (hostOps0 (F := F)) U (Proc.devRef .tc main_v1) = val_main_v1 (F := F) x1 := by
  after_results_simp
  rw [h]
  rfl
theorem s0_dst (x1 : (⟨Cert.ReferenceIdeal.S2x800000, .i32⟩ : BufTy).Contents (Elt F)) (h : U (Proc.devRef .tc main_arg1) = x1) :
    after (hostOps0 (F := F)) U (Proc.devRef .tc main_v3) = val_main_v3 (F := F) x1 := by
  after_results_simp
  rw [h]
  rfl
theorem s0_pos (x1 : (⟨Cert.ReferenceIdeal.S2x800000, .i32⟩ : BufTy).Contents (Elt F)) (h : U (Proc.devRef .tc main_arg1) = x1) :
    after (hostOps0 (F := F)) U (Proc.devRef .tc main_v9) = val_main_v9 (F := F) x1 := by
  after_results_simp
  rw [h]
  rfl
theorem s0_inv (x1 : (⟨Cert.ReferenceIdeal.S2x800000, .i32⟩ : BufTy).Contents (Elt F)) (h : U (Proc.devRef .tc main_arg1) = x1) :
    after (hostOps0 (F := F)) U (Proc.devRef .tc main_v13) = val_main_v13 (F := F) x1 := by
  after_results_simp
  rw [h]
  rfl
theorem s0_zero : after (hostOps0 (F := F)) U (Proc.devRef .tc main_cst_4) = val_main_cst_4 (F := F) := by
  after_results_simp
  rfl
theorem s0_keep0 : after (hostOps0 (F := F)) U (Proc.devRef .tc main_arg0) = U (Proc.devRef .tc main_arg0) := by
  after_results_simp
theorem s0_keep1 : after (hostOps0 (F := F)) U (Proc.devRef .tc main_arg1) = U (Proc.devRef .tc main_arg1) := by
  after_results_simp
theorem s0_keep2 : after (hostOps0 (F := F)) U (Proc.devRef .tc main_arg2) = U (Proc.devRef .tc main_arg2) := by
  after_results_simp
theorem s0_keep3 : after (hostOps0 (F := F)) U (Proc.devRef .tc main_arg3) = U (Proc.devRef .tc main_arg3) := by
  after_results_simp
theorem s0_keep4 : after (hostOps0 (F := F)) U (Proc.devRef .tc main_arg4) = U (Proc.devRef .tc main_arg4) := by
  after_results_simp
theorem s0_keep5 : after (hostOps0 (F := F)) U (Proc.devRef .tc main_arg5) = U (Proc.devRef .tc main_arg5) := by
  after_results_simp
theorem s0_keep6 : after (hostOps0 (F := F)) U (Proc.devRef .tc main_arg6) = U (Proc.devRef .tc main_arg6) := by
  after_results_simp
theorem s0_keep7 : after (hostOps0 (F := F)) U (Proc.devRef .tc main_arg7) = U (Proc.devRef .tc main_arg7) := by
  after_results_simp
theorem s0_keep8 : after (hostOps0 (F := F)) U (Proc.devRef .tc main_arg8) = U (Proc.devRef .tc main_arg8) := by
  after_results_simp
theorem s0_keep9 : after (hostOps0 (F := F)) U (Proc.devRef .tc main_arg9) = U (Proc.devRef .tc main_arg9) := by
  after_results_simp

/-! ## The second stretch: the reciprocal in-degree where the in-degree is positive, zero elsewhere -/

theorem s1_invdeg0 (x1 : (⟨Cert.ReferenceIdeal.S2x800000, .i32⟩ : BufTy).Contents (Elt F)) (hz : U (Proc.devRef .tc main_cst_4) = val_main_cst_4 (F := F)) (hp : U (Proc.devRef .tc main_v9) = val_main_v9 (F := F) x1) (hi : U (Proc.devRef .tc main_v13) = val_main_v13 (F := F) x1) :
    after (hostOps0_1 (F := F)) U (Proc.devRef .tc main_v14) = val_main_v14 (F := F) x1 := by
  after_results_simp
  rw [hz, hp, hi]
  rfl
theorem s1_keep0 : after (hostOps0_1 (F := F)) U (Proc.devRef .tc main_arg0) = U (Proc.devRef .tc main_arg0) := by
  after_results_simp
theorem s1_keep1 : after (hostOps0_1 (F := F)) U (Proc.devRef .tc main_arg1) = U (Proc.devRef .tc main_arg1) := by
  after_results_simp
theorem s1_keep2 : after (hostOps0_1 (F := F)) U (Proc.devRef .tc main_arg2) = U (Proc.devRef .tc main_arg2) := by
  after_results_simp
theorem s1_keep3 : after (hostOps0_1 (F := F)) U (Proc.devRef .tc main_arg3) = U (Proc.devRef .tc main_arg3) := by
  after_results_simp
theorem s1_keep4 : after (hostOps0_1 (F := F)) U (Proc.devRef .tc main_arg4) = U (Proc.devRef .tc main_arg4) := by
  after_results_simp
theorem s1_keep5 : after (hostOps0_1 (F := F)) U (Proc.devRef .tc main_arg5) = U (Proc.devRef .tc main_arg5) := by
  after_results_simp
theorem s1_keep6 : after (hostOps0_1 (F := F)) U (Proc.devRef .tc main_arg6) = U (Proc.devRef .tc main_arg6) := by
  after_results_simp
theorem s1_keep7 : after (hostOps0_1 (F := F)) U (Proc.devRef .tc main_arg7) = U (Proc.devRef .tc main_arg7) := by
  after_results_simp
theorem s1_keep8 : after (hostOps0_1 (F := F)) U (Proc.devRef .tc main_arg8) = U (Proc.devRef .tc main_arg8) := by
  after_results_simp
theorem s1_keep9 : after (hostOps0_1 (F := F)) U (Proc.devRef .tc main_arg9) = U (Proc.devRef .tc main_arg9) := by
  after_results_simp
theorem s1_keep_src : after (hostOps0_1 (F := F)) U (Proc.devRef .tc main_v1) = U (Proc.devRef .tc main_v1) := by
  after_results_simp
theorem s1_keep_dst : after (hostOps0_1 (F := F)) U (Proc.devRef .tc main_v3) = U (Proc.devRef .tc main_v3) := by
  after_results_simp

/-! ## The third stretch: the aggregated neighbours and the first layer's weights -/

set_option maxHeartbeats 1000000 in
theorem s2_agg (x0 : (⟨Cert.ReferenceIdeal.S50000x128, .f32⟩ : BufTy).Contents (Elt F)) (x1 : (⟨Cert.ReferenceIdeal.S2x800000, .i32⟩ : BufTy).Contents (Elt F)) (h0 : U (Proc.devRef .tc main_arg0) = x0) (h1 : U (Proc.devRef .tc main_v1) = val_main_v1 (F := F) x1) (h3 : U (Proc.devRef .tc main_v3) = val_main_v3 (F := F) x1) (h14 : U (Proc.devRef .tc main_v14) = val_main_v14 (F := F) x1) :
    after (hostOps0_2 (F := F)) U (Proc.devRef .tc main_v27) = val_main_v27 (F := F) x0 x1 := by
  after_results_simp
  rw [h0, h1, h3, h14]
  rfl
theorem s2_invdeg (x1 : (⟨Cert.ReferenceIdeal.S2x800000, .i32⟩ : BufTy).Contents (Elt F)) (h14 : U (Proc.devRef .tc main_v14) = val_main_v14 (F := F) x1) :
    after (hostOps0_2 (F := F)) U (Proc.devRef .tc main_v15) = val_main_v15 (F := F) x1 := by
  after_results_simp
  rw [h14]
  rfl
theorem s2_wrel (x3 : (⟨Cert.ReferenceIdeal.S2x128x128, .f32⟩ : BufTy).Contents (Elt F)) (h : U (Proc.devRef .tc main_arg3) = x3) :
    after (hostOps0_2 (F := F)) U (Proc.devRef .tc main_v29) = val_main_v29 (F := F) x3 := by
  after_results_simp
  rw [h]
  rfl
theorem s2_wroot (x5 : (⟨Cert.ReferenceIdeal.S2x128x128, .f32⟩ : BufTy).Contents (Elt F)) (h : U (Proc.devRef .tc main_arg5) = x5) :
    after (hostOps0_2 (F := F)) U (Proc.devRef .tc main_v33) = val_main_v37 (F := F) x5 := by
  after_results_simp
  rw [h]
  rfl
theorem s2_b (x4 : (⟨Cert.ReferenceIdeal.S2x128, .f32⟩ : BufTy).Contents (Elt F)) (h : U (Proc.devRef .tc main_arg4) = x4) :
    (fun q : Fin 128 => after (hostOps0_2 (F := F)) U (Proc.devRef .tc main_v38) (ix2 (n0 := 1) (n1 := 128) 0 q)) = fun q => val_main_v32 (F := F) x4 (ix1 q) := by
  funext q
  after_results_simp
  rw [h]
  exact shapeCast_a_1a_apply (val_main_v32 (F := F) x4) _ 0 q
theorem s2_g (x6 : (⟨Cert.ReferenceIdeal.S2x128, .f32⟩ : BufTy).Contents (Elt F)) (h : U (Proc.devRef .tc main_arg6) = x6) :
    (fun q : Fin 128 => after (hostOps0_2 (F := F)) U (Proc.devRef .tc main_v39) (ix2 (n0 := 1) (n1 := 128) 0 q)) = fun q => val_main_v41 (F := F) x6 (ix1 q) := by
  funext q
  after_results_simp
  rw [h]
  exact shapeCast_a_1a_apply (val_main_v41 (F := F) x6) _ 0 q
theorem s2_be (x7 : (⟨Cert.ReferenceIdeal.S2x128, .f32⟩ : BufTy).Contents (Elt F)) (h : U (Proc.devRef .tc main_arg7) = x7) :
    (fun q : Fin 128 => after (hostOps0_2 (F := F)) U (Proc.devRef .tc main_v40) (ix2 (n0 := 1) (n1 := 128) 0 q)) = fun q => val_main_v43 (F := F) x7 (ix1 q) := by
  funext q
  after_results_simp
  rw [h]
  exact shapeCast_a_1a_apply (val_main_v43 (F := F) x7) _ 0 q
theorem s2_keep0 : after (hostOps0_2 (F := F)) U (Proc.devRef .tc main_arg0) = U (Proc.devRef .tc main_arg0) := by
  after_results_simp
theorem s2_keep1 : after (hostOps0_2 (F := F)) U (Proc.devRef .tc main_arg1) = U (Proc.devRef .tc main_arg1) := by
  after_results_simp
theorem s2_keep2 : after (hostOps0_2 (F := F)) U (Proc.devRef .tc main_arg2) = U (Proc.devRef .tc main_arg2) := by
  after_results_simp
theorem s2_keep3 : after (hostOps0_2 (F := F)) U (Proc.devRef .tc main_arg3) = U (Proc.devRef .tc main_arg3) := by
  after_results_simp
theorem s2_keep4 : after (hostOps0_2 (F := F)) U (Proc.devRef .tc main_arg4) = U (Proc.devRef .tc main_arg4) := by
  after_results_simp
theorem s2_keep5 : after (hostOps0_2 (F := F)) U (Proc.devRef .tc main_arg5) = U (Proc.devRef .tc main_arg5) := by
  after_results_simp
theorem s2_keep6 : after (hostOps0_2 (F := F)) U (Proc.devRef .tc main_arg6) = U (Proc.devRef .tc main_arg6) := by
  after_results_simp
theorem s2_keep7 : after (hostOps0_2 (F := F)) U (Proc.devRef .tc main_arg7) = U (Proc.devRef .tc main_arg7) := by
  after_results_simp
theorem s2_keep8 : after (hostOps0_2 (F := F)) U (Proc.devRef .tc main_arg8) = U (Proc.devRef .tc main_arg8) := by
  after_results_simp
theorem s2_keep9 : after (hostOps0_2 (F := F)) U (Proc.devRef .tc main_arg9) = U (Proc.devRef .tc main_arg9) := by
  after_results_simp
theorem s2_keep_src : after (hostOps0_2 (F := F)) U (Proc.devRef .tc main_v1) = U (Proc.devRef .tc main_v1) := by
  after_results_simp
theorem s2_keep_dst : after (hostOps0_2 (F := F)) U (Proc.devRef .tc main_v3) = U (Proc.devRef .tc main_v3) := by
  after_results_simp

/-! ## The three stretches together: what the first region finds -/

/-- The buffers after the three stretches of host operations that precede the first region. -/
abbrev head : Valuation τ sig (Elt F) :=
  after (hostOps0_2 (F := F)) (after (hostOps0_1 (F := F)) (after (hostOps0 (F := F)) U))

theorem head_agg : head U (Proc.devRef .tc main_v27) = val_main_v27 (F := F) (U (Proc.devRef .tc main_arg0)) (U (Proc.devRef .tc main_arg1)) :=
  s2_agg _ _ _ ((s1_keep0 _).trans (s0_keep0 U)) ((s1_keep_src _).trans (s0_src U _ rfl)) ((s1_keep_dst _).trans (s0_dst U _ rfl)) (s1_invdeg0 _ _ (s0_zero U) (s0_pos U _ rfl) (s0_inv U _ rfl))
theorem head_wrel : head U (Proc.devRef .tc main_v29) = val_main_v29 (F := F) (U (Proc.devRef .tc main_arg3)) :=
  s2_wrel _ _ ((s1_keep3 _).trans (s0_keep3 U))
theorem head_wroot : head U (Proc.devRef .tc main_v33) = val_main_v37 (F := F) (U (Proc.devRef .tc main_arg5)) :=
  s2_wroot _ _ ((s1_keep5 _).trans (s0_keep5 U))
theorem head_b : (fun q : Fin 128 => head U (Proc.devRef .tc main_v38) (ix2 (n0 := 1) (n1 := 128) 0 q)) = fun q => val_main_v32 (F := F) (U (Proc.devRef .tc main_arg4)) (ix1 q) :=
  s2_b _ _ ((s1_keep4 _).trans (s0_keep4 U))
theorem head_g : (fun q : Fin 128 => head U (Proc.devRef .tc main_v39) (ix2 (n0 := 1) (n1 := 128) 0 q)) = fun q => val_main_v41 (F := F) (U (Proc.devRef .tc main_arg6)) (ix1 q) :=
  s2_g _ _ ((s1_keep6 _).trans (s0_keep6 U))
theorem head_be : (fun q : Fin 128 => head U (Proc.devRef .tc main_v40) (ix2 (n0 := 1) (n1 := 128) 0 q)) = fun q => val_main_v43 (F := F) (U (Proc.devRef .tc main_arg7)) (ix1 q) :=
  s2_be _ _ ((s1_keep7 _).trans (s0_keep7 U))
theorem head_src : head U (Proc.devRef .tc main_v1) = val_main_v1 (F := F) (U (Proc.devRef .tc main_arg1)) :=
  (s2_keep_src _).trans ((s1_keep_src _).trans (s0_src U _ rfl))
theorem head_dst : head U (Proc.devRef .tc main_v3) = val_main_v3 (F := F) (U (Proc.devRef .tc main_arg1)) :=
  (s2_keep_dst _).trans ((s1_keep_dst _).trans (s0_dst U _ rfl))
theorem head_invdeg : head U (Proc.devRef .tc main_v15) = val_main_v15 (F := F) (U (Proc.devRef .tc main_arg1)) :=
  s2_invdeg _ _ (s1_invdeg0 _ _ (s0_zero U) (s0_pos U _ rfl) (s0_inv U _ rfl))
theorem head_keep0 : head U (Proc.devRef .tc main_arg0) = U (Proc.devRef .tc main_arg0) :=
  (s2_keep0 _).trans ((s1_keep0 _).trans (s0_keep0 U))
theorem head_keep1 : head U (Proc.devRef .tc main_arg1) = U (Proc.devRef .tc main_arg1) :=
  (s2_keep1 _).trans ((s1_keep1 _).trans (s0_keep1 U))
theorem head_keep2 : head U (Proc.devRef .tc main_arg2) = U (Proc.devRef .tc main_arg2) :=
  (s2_keep2 _).trans ((s1_keep2 _).trans (s0_keep2 U))
theorem head_keep3 : head U (Proc.devRef .tc main_arg3) = U (Proc.devRef .tc main_arg3) :=
  (s2_keep3 _).trans ((s1_keep3 _).trans (s0_keep3 U))
theorem head_keep4 : head U (Proc.devRef .tc main_arg4) = U (Proc.devRef .tc main_arg4) :=
  (s2_keep4 _).trans ((s1_keep4 _).trans (s0_keep4 U))
theorem head_keep5 : head U (Proc.devRef .tc main_arg5) = U (Proc.devRef .tc main_arg5) :=
  (s2_keep5 _).trans ((s1_keep5 _).trans (s0_keep5 U))
theorem head_keep6 : head U (Proc.devRef .tc main_arg6) = U (Proc.devRef .tc main_arg6) :=
  (s2_keep6 _).trans ((s1_keep6 _).trans (s0_keep6 U))
theorem head_keep7 : head U (Proc.devRef .tc main_arg7) = U (Proc.devRef .tc main_arg7) :=
  (s2_keep7 _).trans ((s1_keep7 _).trans (s0_keep7 U))
theorem head_keep8 : head U (Proc.devRef .tc main_arg8) = U (Proc.devRef .tc main_arg8) :=
  (s2_keep8 _).trans ((s1_keep8 _).trans (s0_keep8 U))
theorem head_keep9 : head U (Proc.devRef .tc main_arg9) = U (Proc.devRef .tc main_arg9) :=
  (s2_keep9 _).trans ((s1_keep9 _).trans (s0_keep9 U))

/-! ## The stretch between the two regions: the second layer's aggregated neighbours and weights -/

set_option maxHeartbeats 1000000 in
theorem mid_agg (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S2x128x128, .f32⟩ : BufTy).Contents (Elt F)) (x4 : (⟨Cert.ReferenceIdeal.S2x128, .f32⟩ : BufTy).Contents (Elt F)) (x5 : (⟨Cert.ReferenceIdeal.S2x128x128, .f32⟩ : BufTy).Contents (Elt F)) (x6 : (⟨Cert.ReferenceIdeal.S2x128, .f32⟩ : BufTy).Contents (Elt F)) (x7 : (⟨Cert.ReferenceIdeal.S2x128, .f32⟩ : BufTy).Contents (Elt F)) (h41 : U (Proc.devRef .tc main_v41) = val_main_v68 (F := F) x0 x1 x3 x4 x5 x6 x7) (h1 : U (Proc.devRef .tc main_v1) = val_main_v1 (F := F) x1) (h3 : U (Proc.devRef .tc main_v3) = val_main_v3 (F := F) x1) (h15 : U (Proc.devRef .tc main_v15) = val_main_v15 (F := F) x1) :
    after (hostOps1 (F := F)) U (Proc.devRef .tc main_v53) = val_main_v80 (F := F) x0 x1 x3 x4 x5 x6 x7 := by
  after_results_simp
  rw [h41, h1, h3, h15]
  rfl
theorem mid_x : after (hostOps1 (F := F)) U (Proc.devRef .tc main_v41) = U (Proc.devRef .tc main_v41) := by
  after_results_simp
theorem mid_wrel (x3 : (⟨Cert.ReferenceIdeal.S2x128x128, .f32⟩ : BufTy).Contents (Elt F)) (h : U (Proc.devRef .tc main_arg3) = x3) :
    after (hostOps1 (F := F)) U (Proc.devRef .tc main_v55) = val_main_v82 (F := F) x3 := by
  after_results_simp
  rw [h]
  rfl
theorem mid_wroot (x5 : (⟨Cert.ReferenceIdeal.S2x128x128, .f32⟩ : BufTy).Contents (Elt F)) (h : U (Proc.devRef .tc main_arg5) = x5) :
    after (hostOps1 (F := F)) U (Proc.devRef .tc main_v59) = val_main_v90 (F := F) x5 := by
  after_results_simp
  rw [h]
  rfl
theorem mid_b (x4 : (⟨Cert.ReferenceIdeal.S2x128, .f32⟩ : BufTy).Contents (Elt F)) (h : U (Proc.devRef .tc main_arg4) = x4) :
    (fun q : Fin 128 => after (hostOps1 (F := F)) U (Proc.devRef .tc main_v64) (ix2 (n0 := 1) (n1 := 128) 0 q)) = fun q => val_main_v85 (F := F) x4 (ix1 q) := by
  funext q
  after_results_simp
  rw [h]
  exact shapeCast_a_1a_apply (val_main_v85 (F := F) x4) _ 0 q
theorem mid_g (x6 : (⟨Cert.ReferenceIdeal.S2x128, .f32⟩ : BufTy).Contents (Elt F)) (h : U (Proc.devRef .tc main_arg6) = x6) :
    (fun q : Fin 128 => after (hostOps1 (F := F)) U (Proc.devRef .tc main_v65) (ix2 (n0 := 1) (n1 := 128) 0 q)) = fun q => val_main_v94 (F := F) x6 (ix1 q) := by
  funext q
  after_results_simp
  rw [h]
  exact shapeCast_a_1a_apply (val_main_v94 (F := F) x6) _ 0 q
theorem mid_be (x7 : (⟨Cert.ReferenceIdeal.S2x128, .f32⟩ : BufTy).Contents (Elt F)) (h : U (Proc.devRef .tc main_arg7) = x7) :
    (fun q : Fin 128 => after (hostOps1 (F := F)) U (Proc.devRef .tc main_v66) (ix2 (n0 := 1) (n1 := 128) 0 q)) = fun q => val_main_v96 (F := F) x7 (ix1 q) := by
  funext q
  after_results_simp
  rw [h]
  exact shapeCast_a_1a_apply (val_main_v96 (F := F) x7) _ 0 q
theorem mid_keep2 : after (hostOps1 (F := F)) U (Proc.devRef .tc main_arg2) = U (Proc.devRef .tc main_arg2) := by
  after_results_simp
theorem mid_keep8 : after (hostOps1 (F := F)) U (Proc.devRef .tc main_arg8) = U (Proc.devRef .tc main_arg8) := by
  after_results_simp
theorem mid_keep9 : after (hostOps1 (F := F)) U (Proc.devRef .tc main_arg9) = U (Proc.devRef .tc main_arg9) := by
  after_results_simp

/-! ## The stretch after the second region: the per-graph mean and the output layer -/

set_option maxHeartbeats 1000000 in
theorem tail_out (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000, .i32⟩ : BufTy).Contents (Elt F)) (x3 : (⟨Cert.ReferenceIdeal.S2x128x128, .f32⟩ : BufTy).Contents (Elt F)) (x4 : (⟨Cert.ReferenceIdeal.S2x128, .f32⟩ : BufTy).Contents (Elt F)) (x5 : (⟨Cert.ReferenceIdeal.S2x128x128, .f32⟩ : BufTy).Contents (Elt F)) (x6 : (⟨Cert.ReferenceIdeal.S2x128, .f32⟩ : BufTy).Contents (Elt F)) (x7 : (⟨Cert.ReferenceIdeal.S2x128, .f32⟩ : BufTy).Contents (Elt F)) (x8 : (⟨Cert.ReferenceIdeal.S128x10, .f32⟩ : BufTy).Contents (Elt F)) (x9 : (⟨Cert.ReferenceIdeal.S10, .f32⟩ : BufTy).Contents (Elt F)) (h67 : U (Proc.devRef .tc main_v67) = val_main_v121 (F := F) x0 x1 x3 x4 x5 x6 x7) (h2 : U (Proc.devRef .tc main_arg2) = x2) (h8 : U (Proc.devRef .tc main_arg8) = x8) (h9 : U (Proc.devRef .tc main_arg9) = x9) :
    after (hostOps2 (F := F)) U (Proc.devRef .tc main_v83) = val_main_v137 (F := F) x0 x1 x2 x3 x4 x5 x6 x7 x8 x9 := by
  after_results_simp
  rw [h67, h2, h8, h9]
  rfl

end Cert.KernelHost
end
-- ==== Proof.KernelValue.lean ====
/-
  The idealized kernel program's result is the reference's last stage of the arguments.

  Follow the buffers' contents through the seven segments of @main. Before the first launch the host stretches compute,
  operation for operation, what the reference computes: the edges' sources and targets, the reciprocal in-degrees, the
  mean of the neighbours' rows of `x`, and the first layer's weight slices; so those buffers hold the reference's stages of
  the arguments. The first launch's output array is the layer of the arrays it finds, and the reference's stage after its
  first layer is the same layer of the same arrays: the output array holds that stage. A launch touches its own arrays
  only, so the edges, the reciprocal in-degrees and the arguments are still there for the next host stretch, which
  computes the second aggregation and weight slices as the reference does; the second launch then leaves the reference's
  stage after its second layer. The last stretch, mean pooling per graph and the classifier, is again the reference's
  own operations, and ends at the reference's last stage.
-/
import proofs.«176213_j90091234001075_1_alg».proof.Proof.Gen.KernelIdeal.Frame
import proofs.«176213_j90091234001075_1_alg».proof.Proof.RefRead
import proofs.«176213_j90091234001075_1_alg».proof.Proof.RefLayers
import proofs.«176213_j90091234001075_1_alg».proof.Proof.KernelRegions
import proofs.«176213_j90091234001075_1_alg».proof.Proof.LayerSpec
import proofs.«176213_j90091234001075_1_alg».proof.Proof.KernelHost

noncomputable section

namespace Cert.KernelValue
open Cert.KernelIdeal Cert.KernelIdeal.Gen Cert.ReferenceIdeal.Read Cert.GraphLayer
open Idealize.ShloMosaic Idealize.ShloMosaic.TcCoe Idealize.SL.Sem Idealize.ShloMosaic.StableHlo Idealize.ShloMosaic.ValueIdx

/-- The layer is a function of its seven arrays: equal arrays give equal layers. -/
theorem layer_congr {agg agg' x x' : (⟨2, ![50000, 128]⟩ : Shape).Idx → EReal} {Wrel Wrel' Wroot Wroot' : (⟨2, ![128, 128]⟩ : Shape).Idx → EReal}
    {b b' g g' be be' : Fin 128 → EReal} (h1 : agg = agg') (h2 : x = x') (h3 : Wrel = Wrel') (h4 : Wroot = Wroot')
    (h5 : b = b') (h6 : g = g') (h7 : be = be') : layer agg x Wrel Wroot b g be = layer agg' x' Wrel' Wroot' b' g' be' := by
  subst h1 h2 h3 h4 h5 h6 h7; rfl

variable (m : (ℓ : Loc nD τ sig) → Buf (Elt Ideal) ℓ) (ρ : Dev nD → PrngReg) (c : Dev nD)

/-- The first layer's region leaves, in its output array, the reference's first layer of the arguments: the host stretches
    before it hold the reference's stages, the region's array is the layer of what it finds, and the reference's stage of
    the first layer is the same layer of the same arrays. -/
theorem first_layer : W4 m ρ c (Proc.devRef .tc main_v41)
    = val_main_v68 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_arr m ρ c 7).trans ((Cert.KernelRegion.out0 (V3 m ρ) c).trans
    ((layer_congr (Cert.KernelHost.head_agg (W0 m ρ c)) (Cert.KernelHost.head_keep0 (W0 m ρ c)) (Cert.KernelHost.head_wrel (W0 m ρ c))
        (Cert.KernelHost.head_wroot (W0 m ρ c)) (Cert.KernelHost.head_b (W0 m ρ c)) (Cert.KernelHost.head_g (W0 m ρ c))
        (Cert.KernelHost.head_be (W0 m ρ c))).trans
      (Cert.RefLayers.layer1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm))

/-- A buffer that is none of the first region's arrays and that the head leaves alone still holds its launch contents
    after the first region. -/
theorem W4_arg {b : Ref sig .tc} (hb : ∀ w, Pipeline.arrRef spec0 w ≠ b)
    (hk : Cert.KernelHost.head (W0 m ρ c) (Proc.devRef .tc b) = W0 m ρ c (Proc.devRef .tc b)) :
    W4 m ρ c (Proc.devRef .tc b) = W0 m ρ c (Proc.devRef .tc b) := (W4_of_ne m ρ c b hb).trans hk

/-- The second layer's region leaves the reference's second layer of the arguments in its output array. -/
theorem second_layer : W6 m ρ c (Proc.devRef .tc main_v67)
    = val_main_v121 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W6_arr m ρ c 7).trans ((Cert.KernelRegion.out1 (V5 m ρ) c).trans
    ((layer_congr
        (Cert.KernelHost.mid_agg (W4 m ρ c) _ _ _ _ _ _ _ (first_layer m ρ c)
          ((W4_of_ne m ρ c main_v1 (by decide)).trans (Cert.KernelHost.head_src (W0 m ρ c)))
          ((W4_of_ne m ρ c main_v3 (by decide)).trans (Cert.KernelHost.head_dst (W0 m ρ c)))
          ((W4_of_ne m ρ c main_v15 (by decide)).trans (Cert.KernelHost.head_invdeg (W0 m ρ c))))
        ((Cert.KernelHost.mid_x (W4 m ρ c)).trans (first_layer m ρ c))
        (Cert.KernelHost.mid_wrel (W4 m ρ c) _ (W4_arg m ρ c (by decide) (Cert.KernelHost.head_keep3 (W0 m ρ c))))
        (Cert.KernelHost.mid_wroot (W4 m ρ c) _ (W4_arg m ρ c (by decide) (Cert.KernelHost.head_keep5 (W0 m ρ c))))
        (Cert.KernelHost.mid_b (W4 m ρ c) _ (W4_arg m ρ c (by decide) (Cert.KernelHost.head_keep4 (W0 m ρ c))))
        (Cert.KernelHost.mid_g (W4 m ρ c) _ (W4_arg m ρ c (by decide) (Cert.KernelHost.head_keep6 (W0 m ρ c))))
        (Cert.KernelHost.mid_be (W4 m ρ c) _ (W4_arg m ρ c (by decide) (Cert.KernelHost.head_keep7 (W0 m ρ c))))).trans
      (Cert.RefLayers.layer2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).symm))

/-- An argument that neither region's arrays nor any host stretch before the last touches holds its launch contents
    when the last stretch starts. -/
theorem W6_arg {b : Ref sig .tc} (hb1 : ∀ w, Pipeline.arrRef spec1 w ≠ b) (hb0 : ∀ w, Pipeline.arrRef spec0 w ≠ b)
    (hm : after (hostOps1 (F := Ideal)) (W4 m ρ c) (Proc.devRef .tc b) = W4 m ρ c (Proc.devRef .tc b))
    (hk : Cert.KernelHost.head (W0 m ρ c) (Proc.devRef .tc b) = W0 m ρ c (Proc.devRef .tc b)) :
    W6 m ρ c (Proc.devRef .tc b) = W0 m ρ c (Proc.devRef .tc b) :=
  (W6_of_ne m ρ c b hb1).trans (hm.trans (W4_arg m ρ c hb0 hk))

/-- THE KERNEL PROGRAM'S RESULT: the last boundary's contents at the result buffer are the reference's last stage of the
    arguments as launched. -/
theorem result : W7 m ρ c (Proc.devRef .tc main_v83)
    = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  Cert.KernelHost.tail_out (W6 m ρ c) _ _ _ _ _ _ _ _ _ _ (second_layer m ρ c)
    (W6_arg m ρ c (by decide) (by decide) (Cert.KernelHost.mid_keep2 (W4 m ρ c)) (Cert.KernelHost.head_keep2 (W0 m ρ c)))
    (W6_arg m ρ c (by decide) (by decide) (Cert.KernelHost.mid_keep8 (W4 m ρ c)) (Cert.KernelHost.head_keep8 (W0 m ρ c)))
    (W6_arg m ρ c (by decide) (by decide) (Cert.KernelHost.mid_keep9 (W4 m ρ c)) (Cert.KernelHost.head_keep9 (W0 m ρ c)))

end Cert.KernelValue

end
-- ==== Proof.LibHostLine.lean ====
/-
  A straight line of host operations, each writing one buffer of its own: what a buffer holds at the end of the line.

  The buffers' contents after a line is the fold of the operations' results over the contents before it, so a line
  cut in two folds the second part over what the first leaves.  Suppose every operation of the line writes exactly
  one reference, and cut the line at one operation.  A reference that is none of those the part after the cut writes
  is written by none of its operations, so at the end of the line its buffer holds what it held right after the
  operation at the cut.  For the operation's own result this is the operation's function of what its operands'
  buffers held right before it; and when the operands too are written by nothing from the cut on (in particular are
  not the result), what they held right before the cut is what they hold at the end.  So at the END of the line

      result = f (operand₁ at the end) (operand₂ at the end) …

  for a constant, a one-, a two- and a three-operand operation.  A program in which every value has a buffer of its
  own, written once and after its operands, satisfies the conditions at every operation, and its buffers' final
  contents then follow one operation at a time, each from the earlier ones.
-/
import Idealize.ShloMosaic.Lib.StableHlo.Run

noncomputable section

namespace Cert.Lib.HostLine

open Idealize.ShloMosaic Idealize.ShloMosaic.StableHlo

variable {τ : Topo} {sig : RefSig} {Val : EltTy → Type}

variable {τ : Topo} {sig : RefSig} {Val : EltTy → Type}

/-- Operation by operation, the one reference each operation of a line writes. -/
abbrev WritesOne (l : List (HloOp τ sig Val)) (w : List (Ref sig .tc)) : Prop :=
  List.Forall₂ (fun op r => op.writes = {Proc.devRef (τ := τ) .tc r}) l w

/-- Two lines run one after the other: the second folds over what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of those a line writes is written by none of its operations. -/
theorem not_written {l : List (HloOp τ sig Val)} {w : List (Ref sig .tc)} (h : WritesOne l w) :
    ∀ {r : Ref sig .tc}, r ∉ w → ∀ op ∈ l, Proc.devRef (τ := τ) .tc r ∉ op.writes := by
  induction h with
  | nil => intro r _ op hop; cases hop
  | @cons op' r' l' w' hab _ ih =>
    intro r hr op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- A buffer the rest of the line does not write holds at the end what it held after the operation at the cut. -/
theorem after_cut {l pre post : List (HloOp τ sig Val)} {op : HloOp τ sig Val} {wpost : List (Ref sig .tc)}
    (e : l = pre ++ op :: post) (hpost : WritesOne post wpost) (V : Valuation τ sig Val)
    {r : Ref sig .tc} (hr : r ∉ wpost) :
    after l V (Proc.devRef .tc r) = op.result (after pre V) (Proc.devRef .tc r) := by
  subst e
  rw [after_app, after_cons]
  exact after_of_forall_not_mem post _ (not_written hpost hr)

/-- A constant's buffer, not written again, holds the constant at the end. -/
theorem fin_nullary {l pre post : List (HloOp τ sig Val)} {wpost : List (Ref sig .tc)} (V : Valuation τ sig Val)
    (y : Ref sig .tc) (v : y.ty.Contents Val) (hy)
    (e : l = pre ++ nullary y v hy :: post) (hpost : WritesOne post wpost) (hy' : y ∉ wpost) :
    after l V (Proc.devRef .tc y) = v := by
  rw [after_cut e hpost V hy', nullary_result]

/-- A one-operand operation's buffer, not written again, holds at the end the operation's function of what the
    operand's buffer holds at the end, when nothing from the operation on writes the operand. -/
theorem fin_unary {l pre post : List (HloOp τ sig Val)} {wpost : List (Ref sig .tc)} (V : Valuation τ sig Val)
    (x y : Ref sig .tc) (f : x.ty.Contents Val → y.ty.Contents Val) (hx hy)
    (e : l = pre ++ unary x y f hx hy :: post) (hpost : WritesOne post wpost)
    (hy' : y ∉ wpost) (hx' : x ∉ y :: wpost) :
    after l V (Proc.devRef .tc y) = f (after l V (Proc.devRef .tc x)) := by
  have nx : x ≠ y := fun h => hx' (by rw [h]; exact List.mem_cons_self)
  rw [after_cut e hpost V hy', after_cut e hpost V (fun h => hx' (List.mem_cons_of_mem _ h)), unary_result,
    unary_result_ne x y f hx hy _ nx]

/-- The same for two operands. -/
theorem fin_binary {l pre post : List (HloOp τ sig Val)} {wpost : List (Ref sig .tc)} (V : Valuation τ sig Val)
    (a b y : Ref sig .tc) (f : a.ty.Contents Val → b.ty.Contents Val → y.ty.Contents Val) (ha hb hy)
    (e : l = pre ++ binary a b y f ha hb hy :: post) (hpost : WritesOne post wpost)
    (hy' : y ∉ wpost) (ha' : a ∉ y :: wpost) (hb' : b ∉ y :: wpost) :
    after l V (Proc.devRef .tc y) = f (after l V (Proc.devRef .tc a)) (after l V (Proc.devRef .tc b)) := by
  have na : a ≠ y := fun h => ha' (by rw [h]; exact List.mem_cons_self)
  have nb : b ≠ y := fun h => hb' (by rw [h]; exact List.mem_cons_self)
  rw [after_cut e hpost V hy', after_cut e hpost V (fun h => ha' (List.mem_cons_of_mem _ h)),
    after_cut e hpost V (fun h => hb' (List.mem_cons_of_mem _ h)), binary_result,
    binary_result_ne a b y f ha hb hy _ na, binary_result_ne a b y f ha hb hy _ nb]

/-- The same for three operands. -/
theorem fin_ternary {l pre post : List (HloOp τ sig Val)} {wpost : List (Ref sig .tc)} (V : Valuation τ sig Val)
    (c a b y : Ref sig .tc) (f : c.ty.Contents Val → a.ty.Contents Val → b.ty.Contents Val → y.ty.Contents Val) (hc ha hb hy)
    (e : l = pre ++ ternary c a b y f hc ha hb hy :: post) (hpost : WritesOne post wpost)
    (hy' : y ∉ wpost) (hc' : c ∉ y :: wpost) (ha' : a ∉ y :: wpost) (hb' : b ∉ y :: wpost) :
    after l V (Proc.devRef .tc y)
      = f (after l V (Proc.devRef .tc c)) (after l V (Proc.devRef .tc a)) (after l V (Proc.devRef .tc b)) := by
  have nc : c ≠ y := fun h => hc' (by rw [h]; exact List.mem_cons_self)
  have na : a ≠ y := fun h => ha' (by rw [h]; exact List.mem_cons_self)
  have nb : b ≠ y := fun h => hb' (by rw [h]; exact List.mem_cons_self)
  rw [after_cut e hpost V hy', after_cut e hpost V (fun h => hc' (List.mem_cons_of_mem _ h)),
    after_cut e hpost V (fun h => ha' (List.mem_cons_of_mem _ h)),
    after_cut e hpost V (fun h => hb' (List.mem_cons_of_mem _ h)), ternary_result,
    ternary_result_ne a b c y f hc ha hb hy _ nc, ternary_result_ne a b c y f hc ha hb hy _ na,
    ternary_result_ne a b c y f hc ha hb hy _ nb]

end Cert.Lib.HostLine

end
-- ==== Proof.RefRunBase.lean ====
/-
  The reference program's run, read one operation at a time: the general part.

  The reference's @main is a straight line of 170 host operations. Each writes one buffer of its own, once, and after
  the buffers it reads; `W` lists those buffers in program order and `hW` says that the k-th operation writes exactly the
  k-th of them. Cut the line at its k-th operation: the references written after the cut are `W.drop (k + 1)`, so when
  neither the operation's result nor any of its operands is among them (and no operand is the result), at the END of the
  line the result's buffer holds the operation's function of what the operands' buffers hold at the END
  (`Cert.Lib.HostLine.fin_nullary` … `fin_ternary`, and `fin_reshape` here for a reshape). `step_nullary` … `step_ternary`
  and `step_reshape` are these facts at this program's line and its list `W`, the cut given by its position. A buffer
  that no operation writes, an argument of @main, holds at the end what it held at the start (`at_unwritten`,
  `at_main_arg0` … `at_main_arg9`).
-/
import proofs.«176213_j90091234001075_1_alg».proof.Proof.RefOps
import proofs.«176213_j90091234001075_1_alg».proof.Proof.RefRead
import proofs.«176213_j90091234001075_1_alg».proof.Proof.LibHostLine
import Idealize.ShloMosaic.Lib.StableHlo.Run
import Idealize.ShloMosaic.Lib.Tactic

noncomputable section

namespace Cert.RefRun

open Cert.ReferenceIdeal Cert.ReferenceIdeal.Value Cert.ReferenceIdeal.Read Idealize.ShloMosaic Idealize.ShloMosaic.TcCoe Idealize.SL.Sem Idealize.ShloMosaic.StableHlo Cert.Lib.HostLine

variable {F : FTy → Type} [FloatOps F]

/-- The reference each operation of the line writes, in program order. -/
abbrev W : List (Ref sig .tc) :=
  [ -- the edge lists, the degrees and their inverses (%0 … %15)
    main_v0, main_v1, main_v2, main_v3, main_cst, main_v4, main_cst_0, main_v5, main_v6, main_v7,
    main_cst_1, main_v8, main_v9, main_cst_2, main_v10, main_v11, main_cst_3, main_v12, main_v13,
    main_cst_4, main_call0_v0, main_call0_v1, main_v14, main_v15,
    -- the first layer's aggregation (%16 … %27)
    main_c, main_v16, main_v17, main_c_5, main_v18, main_v19, main_v20, main_v21, main_v22,
    main_cst_6, main_v23, main_v24, main_v25, main_v26, main_v27,
    -- the first layer's two products and their sum, then the rows of its normalization's scale and shift (%28 … %43)
    main_v28, main_v29, main_v30, main_v31, main_v32, main_v33, main_v34, main_v35, main_v36, main_v37,
    main_v38, main_v39, main_v40, main_v41, main_v42, main_v43,
    -- the first layer's normalization and its maximum with zero (%44 … %68)
    main_cst_7, main_v44, main_v45, main_cst_8, main_v46, main_v47, main_v48, main_v49, main_v50,
    main_cst_9, main_v51, main_v52, main_cst_10, main_v53, main_v54, main_v55, main_v56, main_v57, main_v58,
    main_v59, main_cst_11, main_v60, main_v61, main_v62, main_v63, main_v64, main_v65, main_v66, main_v67,
    main_call1_cst, main_call1_v0, main_v68,
    -- the second layer's aggregation (%69 … %80)
    main_c_12, main_v69, main_v70, main_c_13, main_v71, main_v72, main_v73, main_v74, main_v75,
    main_cst_14, main_v76, main_v77, main_v78, main_v79, main_v80,
    -- the second layer's two products and their sum, then the rows of its normalization's scale and shift (%81 … %96)
    main_v81, main_v82, main_v83, main_v84, main_v85, main_v86, main_v87, main_v88, main_v89, main_v90,
    main_v91, main_v92, main_v93, main_v94, main_v95, main_v96,
    -- the second layer's normalization and its maximum with zero (%97 … %121)
    main_cst_15, main_v97, main_v98, main_cst_16, main_v99, main_v100, main_v101, main_v102, main_v103,
    main_cst_17, main_v104, main_v105, main_cst_18, main_v106, main_v107, main_v108, main_v109, main_v110, main_v111,
    main_v112, main_cst_19, main_v113, main_v114, main_v115, main_v116, main_v117, main_v118, main_v119, main_v120,
    main_call2_cst, main_call2_v0, main_v121,
    -- the mean over each graph and the last linear map (%122 … %137)
    main_cst_20, main_v122, main_cst_21, main_v123, main_v124, main_v125, main_cst_22, main_v126, main_v127, main_v128,
    main_cst_23, main_v129, main_v130, main_v131, main_v132, main_v133, main_v134, main_v135, main_v136, main_v137 ]

set_option maxRecDepth 8192 in
/-- Operation by operation, the line's operations write exactly these references. -/
theorem hW : WritesOne (τ := τ) (ops (F := F)) W := by
  repeat (first | exact List.Forall₂.nil | refine List.Forall₂.cons rfl ?_)

/-- A reshape's buffer, not written again, holds at the end the reshaped contents of what the operand's buffer holds
    at the end, when nothing from the operation on writes the operand. -/
theorem fin_reshape {Val : EltTy → Type} {l pre post : List (HloOp τ sig Val)} {wpost : List (Ref sig .tc)}
    (V : Valuation τ sig Val) (x y : Ref sig .tc) (he hn hx hy)
    (e : l = pre ++ reshape (Val := Val) x y he hn hx hy :: post) (hpost : WritesOne post wpost)
    (hy' : y ∉ wpost) (hx' : x ∉ y :: wpost) :
    after l V (Proc.devRef .tc y) = fun i => he ▸ shapeCast y.ty.shape (after l V (Proc.devRef .tc x)) hn i := by
  have nx : x ≠ y := fun h => hx' (by rw [h]; exact List.mem_cons_self)
  rw [after_cut e hpost V hy', after_cut e hpost V (fun h => hx' (List.mem_cons_of_mem _ h)), reshape_result,
    reshape_result_ne x y he hn hx hy _ nx]

/-! ## One operation of this line, given by its position

The line cut at position `k` is `ops.take k ++ op :: ops.drop (k + 1)`; what is written after the cut is
`W.drop (k + 1)` (`hW` restricted to the part after the cut). -/

/-- Position `k` holds a constant into `y`, and nothing later writes `y`: at the end `y`'s buffer holds the constant. -/
theorem step_nullary (V : Valuation τ sig (Elt F)) (k : Nat) (y : Ref sig .tc) (v : y.ty.Contents (Elt F)) (hy)
    (e : ops (F := F) = (ops (F := F)).take k ++ nullary y v hy :: (ops (F := F)).drop (k + 1))
    (hy' : y ∉ W.drop (k + 1)) :
    after (ops (F := F)) V (Proc.devRef .tc y) = v :=
  fin_nullary V y v hy e (List.forall₂_drop (k + 1) hW) hy'

/-- Position `k` holds a one-operand operation from `x` into `y`; nothing later writes `y`, and nothing from `k` on
    writes `x`: at the end `y`'s buffer holds the operation's function of what `x`'s buffer holds at the end. -/
theorem step_unary (V : Valuation τ sig (Elt F)) (k : Nat) (x y : Ref sig .tc)
    (f : x.ty.Contents (Elt F) → y.ty.Contents (Elt F)) (hx hy)
    (e : ops (F := F) = (ops (F := F)).take k ++ unary x y f hx hy :: (ops (F := F)).drop (k + 1))
    (hy' : y ∉ W.drop (k + 1)) (hx' : x ∉ y :: W.drop (k + 1)) :
    after (ops (F := F)) V (Proc.devRef .tc y) = f (after (ops (F := F)) V (Proc.devRef .tc x)) :=
  fin_unary V x y f hx hy e (List.forall₂_drop (k + 1) hW) hy' hx'

/-- The same for a reshape at position `k`. -/
theorem step_reshape (V : Valuation τ sig (Elt F)) (k : Nat) (x y : Ref sig .tc) (he hn hx hy)
    (e : ops (F := F) = (ops (F := F)).take k ++ reshape (Val := Elt F) x y he hn hx hy :: (ops (F := F)).drop (k + 1))
    (hy' : y ∉ W.drop (k + 1)) (hx' : x ∉ y :: W.drop (k + 1)) :
    after (ops (F := F)) V (Proc.devRef .tc y)
      = fun i => he ▸ shapeCast y.ty.shape (after (ops (F := F)) V (Proc.devRef .tc x)) hn i :=
  fin_reshape V x y he hn hx hy e (List.forall₂_drop (k + 1) hW) hy' hx'

/-- The same for a two-operand operation at position `k`. -/
theorem step_binary (V : Valuation τ sig (Elt F)) (k : Nat) (a b y : Ref sig .tc)
    (f : a.ty.Contents (Elt F) → b.ty.Contents (Elt F) → y.ty.Contents (Elt F)) (ha hb hy)
    (e : ops (F := F) = (ops (F := F)).take k ++ binary a b y f ha hb hy :: (ops (F := F)).drop (k + 1))
    (hy' : y ∉ W.drop (k + 1)) (ha' : a ∉ y :: W.drop (k + 1)) (hb' : b ∉ y :: W.drop (k + 1)) :
    after (ops (F := F)) V (Proc.devRef .tc y)
      = f (after (ops (F := F)) V (Proc.devRef .tc a)) (after (ops (F := F)) V (Proc.devRef .tc b)) :=
  fin_binary V a b y f ha hb hy e (List.forall₂_drop (k + 1) hW) hy' ha' hb'

/-- The same for a three-operand operation at position `k`. -/
theorem step_ternary (V : Valuation τ sig (Elt F)) (k : Nat) (c a b y : Ref sig .tc)
    (f : c.ty.Contents (Elt F) → a.ty.Contents (Elt F) → b.ty.Contents (Elt F) → y.ty.Contents (Elt F)) (hc ha hb hy)
    (e : ops (F := F) = (ops (F := F)).take k ++ ternary c a b y f hc ha hb hy :: (ops (F := F)).drop (k + 1))
    (hy' : y ∉ W.drop (k + 1)) (hc' : c ∉ y :: W.drop (k + 1)) (ha' : a ∉ y :: W.drop (k + 1))
    (hb' : b ∉ y :: W.drop (k + 1)) :
    after (ops (F := F)) V (Proc.devRef .tc y)
      = f (after (ops (F := F)) V (Proc.devRef .tc c)) (after (ops (F := F)) V (Proc.devRef .tc a))
          (after (ops (F := F)) V (Proc.devRef .tc b)) :=
  fin_ternary V c a b y f hc ha hb hy e (List.forall₂_drop (k + 1) hW) hy' hc' ha' hb'

/-! ## The arguments of @main: written by no operation -/

/-- A reference the line does not write holds at the end what it held at the start. -/
theorem at_unwritten {r : Ref sig .tc} (hr : r ∉ W) (V : Valuation τ sig (Elt F)) :
    after (ops (F := F)) V (Proc.devRef .tc r) = V (Proc.devRef .tc r) :=
  after_of_forall_not_mem _ V (not_written hW hr)

theorem at_main_arg0 (V : Valuation τ sig (Elt F)) :
    after (ops (F := F)) V (Proc.devRef .tc main_arg0) = V (Proc.devRef .tc main_arg0) := at_unwritten (by decide) V
theorem at_main_arg1 (V : Valuation τ sig (Elt F)) :
    after (ops (F := F)) V (Proc.devRef .tc main_arg1) = V (Proc.devRef .tc main_arg1) := at_unwritten (by decide) V
theorem at_main_arg2 (V : Valuation τ sig (Elt F)) :
    after (ops (F := F)) V (Proc.devRef .tc main_arg2) = V (Proc.devRef .tc main_arg2) := at_unwritten (by decide) V
theorem at_main_arg3 (V : Valuation τ sig (Elt F)) :
    after (ops (F := F)) V (Proc.devRef .tc main_arg3) = V (Proc.devRef .tc main_arg3) := at_unwritten (by decide) V
theorem at_main_arg4 (V : Valuation τ sig (Elt F)) :
    after (ops (F := F)) V (Proc.devRef .tc main_arg4) = V (Proc.devRef .tc main_arg4) := at_unwritten (by decide) V
theorem at_main_arg5 (V : Valuation τ sig (Elt F)) :
    after (ops (F := F)) V (Proc.devRef .tc main_arg5) = V (Proc.devRef .tc main_arg5) := at_unwritten (by decide) V
theorem at_main_arg6 (V : Valuation τ sig (Elt F)) :
    after (ops (F := F)) V (Proc.devRef .tc main_arg6) = V (Proc.devRef .tc main_arg6) := at_unwritten (by decide) V
theorem at_main_arg7 (V : Valuation τ sig (Elt F)) :
    after (ops (F := F)) V (Proc.devRef .tc main_arg7) = V (Proc.devRef .tc main_arg7) := at_unwritten (by decide) V
theorem at_main_arg8 (V : Valuation τ sig (Elt F)) :
    after (ops (F := F)) V (Proc.devRef .tc main_arg8) = V (Proc.devRef .tc main_arg8) := at_unwritten (by decide) V
theorem at_main_arg9 (V : Valuation τ sig (Elt F)) :
    after (ops (F := F)) V (Proc.devRef .tc main_arg9) = V (Proc.devRef .tc main_arg9) := at_unwritten (by decide) V

end Cert.RefRun

end
-- ==== Proof.RefRunTable.lean ====
/-
  The reference program's run, read one operation at a time: the table.

  One lemma for each of the 170 operations of the line, in program order: at the end of the line the operation's
  buffer holds its stage `val_…` of the program applied to what the arguments' buffers held at the start. Each is the
  step lemma of the operation's builder at the operation's position (at the end the buffer holds the operation's
  function of what the operands' buffers hold at the end), rewritten by the lemmas of the operands (earlier in this
  table, or `at_main_arg…` for an argument of @main); what is left says that a stage is its operation's function
  of its operands' stages, which is its definition.
-/
import proofs.«176213_j90091234001075_1_alg».proof.Proof.RefRunBase

noncomputable section

namespace Cert.RefRun

open Cert.ReferenceIdeal Cert.ReferenceIdeal.Value Cert.ReferenceIdeal.Read Idealize.ShloMosaic Idealize.ShloMosaic.TcCoe Idealize.SL.Sem Idealize.ShloMosaic.StableHlo Cert.Lib.HostLine

variable {F : FTy → Type} [FloatOps F]

theorem at_main_v0 (V : Valuation τ sig (Elt F)) :
    after (ops (F := F)) V (Proc.devRef .tc main_v0) = val_main_v0 (F := F) (V (Proc.devRef .tc main_arg1)) := by
  rewrite [step_unary V 0 _ _ _ _ _ rfl (by decide) (by decide),
    at_main_arg1 V]
  rfl

theorem at_main_v1 (V : Valuation τ sig (Elt F)) :
    after (ops (F := F)) V (Proc.devRef .tc main_v1) = val_main_v1 (F := F) (V (Proc.devRef .tc main_arg1)) := by
  rewrite [step_reshape V 1 _ _ _ _ _ _ rfl (by decide) (by decide),
    at_main_v0 V]
  rfl

theorem at_main_v2 (V : Valuation τ sig (Elt F)) :
    after (ops (F := F)) V (Proc.devRef .tc main_v2) = val_main_v2 (F := F) (V (Proc.devRef .tc main_arg1)) := by
  rewrite [step_unary V 2 _ _ _ _ _ rfl (by decide) (by decide),
    at_main_arg1 V]
  rfl

theorem at_main_v3 (V : Valuation τ sig (Elt F)) :
    after (ops (F := F)) V (Proc.devRef .tc main_v3) = val_main_v3 (F := F) (V (Proc.devRef .tc main_arg1)) := by
  rewrite [step_reshape V 3 _ _ _ _ _ _ rfl (by decide) (by decide),
    at_main_v2 V]
  rfl

theorem at_main_cst (V : Valuation τ sig (Elt F)) :
    after (ops (F := F)) V (Proc.devRef .tc main_cst) = val_main_cst (F := F) := by
  rewrite [step_nullary V 4 _ _ _ rfl (by decide)]
  rfl

theorem at_main_v4 (V : Valuation τ sig (Elt F)) :
    after (ops (F := F)) V (Proc.devRef .tc main_v4) = val_main_v4 (F := F) := by
  rewrite [step_unary V 5 _ _ _ _ _ rfl (by decide) (by decide),
    at_main_cst V]
  rfl

theorem at_main_cst_0 (V : Valuation τ sig (Elt F)) :
    after (ops (F := F)) V (Proc.devRef .tc main_cst_0) = val_main_cst_0 (F := F) := by
  rewrite [step_nullary V 6 _ _ _ rfl (by decide)]
  rfl

theorem at_main_v5 (V : Valuation τ sig (Elt F)) :
    after (ops (F := F)) V (Proc.devRef .tc main_v5) = val_main_v5 (F := F) := by
  rewrite [step_unary V 7 _ _ _ _ _ rfl (by decide) (by decide),
    at_main_cst_0 V]
  rfl

theorem at_main_v6 (V : Valuation τ sig (Elt F)) :
    after (ops (F := F)) V (Proc.devRef .tc main_v6) = val_main_v6 (F := F) (V (Proc.devRef .tc main_arg1)) := by
  rewrite [step_unary V 8 _ _ _ _ _ rfl (by decide) (by decide),
    at_main_v3 V]
  rfl

theorem at_main_v7 (V : Valuation τ sig (Elt F)) :
    after (ops (F := F)) V (Proc.devRef .tc main_v7) = val_main_v7 (F := F) (V (Proc.devRef .tc main_arg1)) := by
  rewrite [step_ternary V 9 _ _ _ _ _ _ _ _ _ rfl (by decide) (by decide) (by decide) (by decide),
    at_main_v5 V,
    at_main_v6 V,
    at_main_v4 V]
  rfl

theorem at_main_cst_1 (V : Valuation τ sig (Elt F)) :
    after (ops (F := F)) V (Proc.devRef .tc main_cst_1) = val_main_cst_1 (F := F) := by
  rewrite [step_nullary V 10 _ _ _ rfl (by decide)]
  rfl

theorem at_main_v8 (V : Valuation τ sig (Elt F)) :
    after (ops (F := F)) V (Proc.devRef .tc main_v8) = val_main_v8 (F := F) := by
  rewrite [step_unary V 11 _ _ _ _ _ rfl (by decide) (by decide),
    at_main_cst_1 V]
  rfl

theorem at_main_v9 (V : Valuation τ sig (Elt F)) :
    after (ops (F := F)) V (Proc.devRef .tc main_v9) = val_main_v9 (F := F) (V (Proc.devRef .tc main_arg1)) := by
  rewrite [step_binary V 12 _ _ _ _ _ _ _ rfl (by decide) (by decide) (by decide),
    at_main_v7 V,
    at_main_v8 V]
  rfl

theorem at_main_cst_2 (V : Valuation τ sig (Elt F)) :
    after (ops (F := F)) V (Proc.devRef .tc main_cst_2) = val_main_cst_2 (F := F) := by
  rewrite [step_nullary V 13 _ _ _ rfl (by decide)]
  rfl

theorem at_main_v10 (V : Valuation τ sig (Elt F)) :
    after (ops (F := F)) V (Proc.devRef .tc main_v10) = val_main_v10 (F := F) := by
  rewrite [step_unary V 14 _ _ _ _ _ rfl (by decide) (by decide),
    at_main_cst_2 V]
  rfl

theorem at_main_v11 (V : Valuation τ sig (Elt F)) :
    after (ops (F := F)) V (Proc.devRef .tc main_v11) = val_main_v11 (F := F) (V (Proc.devRef .tc main_arg1)) := by
  rewrite [step_binary V 15 _ _ _ _ _ _ _ rfl (by decide) (by decide) (by decide),
    at_main_v7 V,
    at_main_v10 V]
  rfl

theorem at_main_cst_3 (V : Valuation τ sig (Elt F)) :
    after (ops (F := F)) V (Proc.devRef .tc main_cst_3) = val_main_cst_3 (F := F) := by
  rewrite [step_nullary V 16 _ _ _ rfl (by decide)]
  rfl

theorem at_main_v12 (V : Valuation τ sig (Elt F)) :
    after (ops (F := F)) V (Proc.devRef .tc main_v12) = val_main_v12 (F := F) := by
  rewrite [step_unary V 17 _ _ _ _ _ rfl (by decide) (by decide),
    at_main_cst_3 V]
  rfl

theorem at_main_v13 (V : Valuation τ sig (Elt F)) :
    after (ops (F := F)) V (Proc.devRef .tc main_v13) = val_main_v13 (F := F) (V (Proc.devRef .tc main_arg1)) := by
  rewrite [step_binary V 18 _ _ _ _ _ _ _ rfl (by decide) (by decide) (by decide),
    at_main_v12 V,
    at_main_v11 V]
  rfl

theorem at_main_cst_4 (V : Valuation τ sig (Elt F)) :
    after (ops (F := F)) V (Proc.devRef .tc main_cst_4) = val_main_cst_4 (F := F) := by
  rewrite [step_nullary V 19 _ _ _ rfl (by decide)]
  rfl

theorem at_main_call0_v0 (V : Valuation τ sig (Elt F)) :
    after (ops (F := F)) V (Proc.devRef .tc main_call0_v0) = val_main_call0_v0 (F := F) := by
  rewrite [step_unary V 20 _ _ _ _ _ rfl (by decide) (by decide),
    at_main_cst_4 V]
  rfl

theorem at_main_call0_v1 (V : Valuation τ sig (Elt F)) :
    after (ops (F := F)) V (Proc.devRef .tc main_call0_v1) = val_main_call0_v1 (F := F) := by
  rewrite [step_unary V 21 _ _ _ _ _ rfl (by decide) (by decide),
    at_main_call0_v0 V]
  rfl

theorem at_main_v14 (V : Valuation τ sig (Elt F)) :
    after (ops (F := F)) V (Proc.devRef .tc main_v14) = val_main_v14 (F := F) (V (Proc.devRef .tc main_arg1)) := by
  rewrite [step_ternary V 22 _ _ _ _ _ _ _ _ _ rfl (by decide) (by decide) (by decide) (by decide),
    at_main_v9 V,
    at_main_v13 V,
    at_main_call0_v1 V]
  rfl

theorem at_main_v15 (V : Valuation τ sig (Elt F)) :
    after (ops (F := F)) V (Proc.devRef .tc main_v15) = val_main_v15 (F := F) (V (Proc.devRef .tc main_arg1)) := by
  rewrite [step_unary V 23 _ _ _ _ _ rfl (by decide) (by decide),
    at_main_v14 V]
  rfl

theorem at_main_c (V : Valuation τ sig (Elt F)) :
    after (ops (F := F)) V (Proc.devRef .tc main_c) = val_main_c (F := F) := by
  rewrite [step_nullary V 24 _ _ _ rfl (by decide)]
  rfl

theorem at_main_v16 (V : Valuation τ sig (Elt F)) :
    after (ops (F := F)) V (Proc.devRef .tc main_v16) = val_main_v16 (F := F) := by
  rewrite [step_unary V 25 _ _ _ _ _ rfl (by decide) (by decide),
    at_main_c V]
  rfl

theorem at_main_v17 (V : Valuation τ sig (Elt F)) :
    after (ops (F := F)) V (Proc.devRef .tc main_v17) = val_main_v17 (F := F) (V (Proc.devRef .tc main_arg1)) := by
  rewrite [step_binary V 26 _ _ _ _ _ _ _ rfl (by decide) (by decide) (by decide),
    at_main_v1 V,
    at_main_v16 V]
  rfl

theorem at_main_c_5 (V : Valuation τ sig (Elt F)) :
    after (ops (F := F)) V (Proc.devRef .tc main_c_5) = val_main_c_5 (F := F) := by
  rewrite [step_nullary V 27 _ _ _ rfl (by decide)]
  rfl

theorem at_main_v18 (V : Valuation τ sig (Elt F)) :
    after (ops (F := F)) V (Proc.devRef .tc main_v18) = val_main_v18 (F := F) := by
  rewrite [step_unary V 28 _ _ _ _ _ rfl (by decide) (by decide),
    at_main_c_5 V]
  rfl

theorem at_main_v19 (V : Valuation τ sig (Elt F)) :
    after (ops (F := F)) V (Proc.devRef .tc main_v19) = val_main_v19 (F := F) (V (Proc.devRef .tc main_arg1)) := by
  rewrite [step_binary V 29 _ _ _ _ _ _ _ rfl (by decide) (by decide) (by decide),
    at_main_v1 V,
    at_main_v18 V]
  rfl

theorem at_main_v20 (V : Valuation τ sig (Elt F)) :
    after (ops (F := F)) V (Proc.devRef .tc main_v20) = val_main_v20 (F := F) (V (Proc.devRef .tc main_arg1)) := by
  rewrite [step_ternary V 30 _ _ _ _ _ _ _ _ _ rfl (by decide) (by decide) (by decide) (by decide),
    at_main_v17 V,
    at_main_v19 V,
    at_main_v1 V]
  rfl

theorem at_main_v21 (V : Valuation τ sig (Elt F)) :
    after (ops (F := F)) V (Proc.devRef .tc main_v21) = val_main_v21 (F := F) (V (Proc.devRef .tc main_arg1)) := by
  rewrite [step_unary V 31 _ _ _ _ _ rfl (by decide) (by decide),
    at_main_v20 V]
  rfl

theorem at_main_v22 (V : Valuation τ sig (Elt F)) :
    after (ops (F := F)) V (Proc.devRef .tc main_v22) = val_main_v22 (F := F) (V (Proc.devRef .tc main_arg0)) (V (Proc.devRef .tc main_arg1)) := by
  rewrite [step_binary V 32 _ _ _ _ _ _ _ rfl (by decide) (by decide) (by decide),
    at_main_arg0 V,
    at_main_v21 V]
  rfl

theorem at_main_cst_6 (V : Valuation τ sig (Elt F)) :
    after (ops (F := F)) V (Proc.devRef .tc main_cst_6) = val_main_cst_6 (F := F) := by
  rewrite [step_nullary V 33 _ _ _ rfl (by decide)]
  rfl

theorem at_main_v23 (V : Valuation τ sig (Elt F)) :
    after (ops (F := F)) V (Proc.devRef .tc main_v23) = val_main_v23 (F := F) := by
  rewrite [step_unary V 34 _ _ _ _ _ rfl (by decide) (by decide),
    at_main_cst_6 V]
  rfl

theorem at_main_v24 (V : Valuation τ sig (Elt F)) :
    after (ops (F := F)) V (Proc.devRef .tc main_v24) = val_main_v24 (F := F) (V (Proc.devRef .tc main_arg1)) := by
  rewrite [step_unary V 35 _ _ _ _ _ rfl (by decide) (by decide),
    at_main_v3 V]
  rfl

theorem at_main_v25 (V : Valuation τ sig (Elt F)) :
    after (ops (F := F)) V (Proc.devRef .tc main_v25) = val_main_v25 (F := F) (V (Proc.devRef .tc main_arg0)) (V (Proc.devRef .tc main_arg1)) := by
  rewrite [step_ternary V 36 _ _ _ _ _ _ _ _ _ rfl (by decide) (by decide) (by decide) (by decide),
    at_main_v23 V,
    at_main_v24 V,
    at_main_v22 V]
  rfl

theorem at_main_v26 (V : Valuation τ sig (Elt F)) :
    after (ops (F := F)) V (Proc.devRef .tc main_v26) = val_main_v26 (F := F) (V (Proc.devRef .tc main_arg1)) := by
  rewrite [step_unary V 37 _ _ _ _ _ rfl (by decide) (by decide),
    at_main_v15 V]
  rfl

theorem at_main_v27 (V : Valuation τ sig (Elt F)) :
    after (ops (F := F)) V (Proc.devRef .tc main_v27) = val_main_v27 (F := F) (V (Proc.devRef .tc main_arg0)) (V (Proc.devRef .tc main_arg1)) := by
  rewrite [step_binary V 38 _ _ _ _ _ _ _ rfl (by decide) (by decide) (by decide),
    at_main_v25 V,
    at_main_v26 V]
  rfl

theorem at_main_v28 (V : Valuation τ sig (Elt F)) :
    after (ops (F := F)) V (Proc.devRef .tc main_v28) = val_main_v28 (F := F) (V (Proc.devRef .tc main_arg3)) := by
  rewrite [step_unary V 39 _ _ _ _ _ rfl (by decide) (by decide),
    at_main_arg3 V]
  rfl

theorem at_main_v29 (V : Valuation τ sig (Elt F)) :
    after (ops (F := F)) V (Proc.devRef .tc main_v29) = val_main_v29 (F := F) (V (Proc.devRef .tc main_arg3)) := by
  rewrite [step_reshape V 40 _ _ _ _ _ _ rfl (by decide) (by decide),
    at_main_v28 V]
  rfl

theorem at_main_v30 (V : Valuation τ sig (Elt F)) :
    after (ops (F := F)) V (Proc.devRef .tc main_v30) = val_main_v30 (F := F) (V (Proc.devRef .tc main_arg0)) (V (Proc.devRef .tc main_arg1)) (V (Proc.devRef .tc main_arg3)) := by
  rewrite [step_binary V 41 _ _ _ _ _ _ _ rfl (by decide) (by decide) (by decide),
    at_main_v27 V,
    at_main_v29 V]
  rfl

theorem at_main_v31 (V : Valuation τ sig (Elt F)) :
    after (ops (F := F)) V (Proc.devRef .tc main_v31) = val_main_v31 (F := F) (V (Proc.devRef .tc main_arg4)) := by
  rewrite [step_unary V 42 _ _ _ _ _ rfl (by decide) (by decide),
    at_main_arg4 V]
  rfl

theorem at_main_v32 (V : Valuation τ sig (Elt F)) :
    after (ops (F := F)) V (Proc.devRef .tc main_v32) = val_main_v32 (F := F) (V (Proc.devRef .tc main_arg4)) := by
  rewrite [step_reshape V 43 _ _ _ _ _ _ rfl (by decide) (by decide),
    at_main_v31 V]
  rfl

theorem at_main_v33 (V : Valuation τ sig (Elt F)) :
    after (ops (F := F)) V (Proc.devRef .tc main_v33) = val_main_v33 (F := F) (V (Proc.devRef .tc main_arg4)) := by
  rewrite [step_unary V 44 _ _ _ _ _ rfl (by decide) (by decide),
    at_main_v32 V]
  rfl

theorem at_main_v34 (V : Valuation τ sig (Elt F)) :
    after (ops (F := F)) V (Proc.devRef .tc main_v34) = val_main_v34 (F := F) (V (Proc.devRef .tc main_arg4)) := by
  rewrite [step_unary V 45 _ _ _ _ _ rfl (by decide) (by decide),
    at_main_v33 V]
  rfl

theorem at_main_v35 (V : Valuation τ sig (Elt F)) :
    after (ops (F := F)) V (Proc.devRef .tc main_v35) = val_main_v35 (F := F) (V (Proc.devRef .tc main_arg0)) (V (Proc.devRef .tc main_arg1)) (V (Proc.devRef .tc main_arg3)) (V (Proc.devRef .tc main_arg4)) := by
  rewrite [step_binary V 46 _ _ _ _ _ _ _ rfl (by decide) (by decide) (by decide),
    at_main_v30 V,
    at_main_v34 V]
  rfl

theorem at_main_v36 (V : Valuation τ sig (Elt F)) :
    after (ops (F := F)) V (Proc.devRef .tc main_v36) = val_main_v36 (F := F) (V (Proc.devRef .tc main_arg5)) := by
  rewrite [step_unary V 47 _ _ _ _ _ rfl (by decide) (by decide),
    at_main_arg5 V]
  rfl

theorem at_main_v37 (V : Valuation τ sig (Elt F)) :
    after (ops (F := F)) V (Proc.devRef .tc main_v37) = val_main_v37 (F := F) (V (Proc.devRef .tc main_arg5)) := by
  rewrite [step_reshape V 48 _ _ _ _ _ _ rfl (by decide) (by decide),
    at_main_v36 V]
  rfl

theorem at_main_v38 (V : Valuation τ sig (Elt F)) :
    after (ops (F := F)) V (Proc.devRef .tc main_v38) = val_main_v38 (F := F) (V (Proc.devRef .tc main_arg0)) (V (Proc.devRef .tc main_arg5)) := by
  rewrite [step_binary V 49 _ _ _ _ _ _ _ rfl (by decide) (by decide) (by decide),
    at_main_arg0 V,
    at_main_v37 V]
  rfl

theorem at_main_v39 (V : Valuation τ sig (Elt F)) :
    after (ops (F := F)) V (Proc.devRef .tc main_v39) = val_main_v39 (F := F) (V (Proc.devRef .tc main_arg0)) (V (Proc.devRef .tc main_arg1)) (V (Proc.devRef .tc main_arg3)) (V (Proc.devRef .tc main_arg4)) (V (Proc.devRef .tc main_arg5)) := by
  rewrite [step_binary V 50 _ _ _ _ _ _ _ rfl (by decide) (by decide) (by decide),
    at_main_v35 V,
    at_main_v38 V]
  rfl

theorem at_main_v40 (V : Valuation τ sig (Elt F)) :
    after (ops (F := F)) V (Proc.devRef .tc main_v40) = val_main_v40 (F := F) (V (Proc.devRef .tc main_arg6)) := by
  rewrite [step_unary V 51 _ _ _ _ _ rfl (by decide) (by decide),
    at_main_arg6 V]
  rfl

theorem at_main_v41 (V : Valuation τ sig (Elt F)) :
    after (ops (F := F)) V (Proc.devRef .tc main_v41) = val_main_v41 (F := F) (V (Proc.devRef .tc main_arg6)) := by
  rewrite [step_reshape V 52 _ _ _ _ _ _ rfl (by decide) (by decide),
    at_main_v40 V]
  rfl

theorem at_main_v42 (V : Valuation τ sig (Elt F)) :
    after (ops (F := F)) V (Proc.devRef .tc main_v42) = val_main_v42 (F := F) (V (Proc.devRef .tc main_arg7)) := by
  rewrite [step_unary V 53 _ _ _ _ _ rfl (by decide) (by decide),
    at_main_arg7 V]
  rfl

theorem at_main_v43 (V : Valuation τ sig (Elt F)) :
    after (ops (F := F)) V (Proc.devRef .tc main_v43) = val_main_v43 (F := F) (V (Proc.devRef .tc main_arg7)) := by
  rewrite [step_reshape V 54 _ _ _ _ _ _ rfl (by decide) (by decide),
    at_main_v42 V]
  rfl

theorem at_main_cst_7 (V : Valuation τ sig (Elt F)) :
    after (ops (F := F)) V (Proc.devRef .tc main_cst_7) = val_main_cst_7 (F := F) := by
  rewrite [step_nullary V 55 _ _ _ rfl (by decide)]
  rfl

theorem at_main_v44 (V : Valuation τ sig (Elt F)) :
    after (ops (F := F)) V (Proc.devRef .tc main_v44) = val_main_v44 (F := F) (V (Proc.devRef .tc main_arg0)) (V (Proc.devRef .tc main_arg1)) (V (Proc.devRef .tc main_arg3)) (V (Proc.devRef .tc main_arg4)) (V (Proc.devRef .tc main_arg5)) := by
  rewrite [step_binary V 56 _ _ _ _ _ _ _ rfl (by decide) (by decide) (by decide),
    at_main_v39 V,
    at_main_cst_7 V]
  rfl

theorem at_main_v45 (V : Valuation τ sig (Elt F)) :
    after (ops (F := F)) V (Proc.devRef .tc main_v45) = val_main_v45 (F := F) (V (Proc.devRef .tc main_arg0)) (V (Proc.devRef .tc main_arg1)) (V (Proc.devRef .tc main_arg3)) (V (Proc.devRef .tc main_arg4)) (V (Proc.devRef .tc main_arg5)) := by
  rewrite [step_unary V 57 _ _ _ _ _ rfl (by decide) (by decide),
    at_main_v44 V]
  rfl

theorem at_main_cst_8 (V : Valuation τ sig (Elt F)) :
    after (ops (F := F)) V (Proc.devRef .tc main_cst_8) = val_main_cst_8 (F := F) := by
  rewrite [step_nullary V 58 _ _ _ rfl (by decide)]
  rfl

theorem at_main_v46 (V : Valuation τ sig (Elt F)) :
    after (ops (F := F)) V (Proc.devRef .tc main_v46) = val_main_v46 (F := F) := by
  rewrite [step_unary V 59 _ _ _ _ _ rfl (by decide) (by decide),
    at_main_cst_8 V]
  rfl

theorem at_main_v47 (V : Valuation τ sig (Elt F)) :
    after (ops (F := F)) V (Proc.devRef .tc main_v47) = val_main_v47 (F := F) (V (Proc.devRef .tc main_arg0)) (V (Proc.devRef .tc main_arg1)) (V (Proc.devRef .tc main_arg3)) (V (Proc.devRef .tc main_arg4)) (V (Proc.devRef .tc main_arg5)) := by
  rewrite [step_binary V 60 _ _ _ _ _ _ _ rfl (by decide) (by decide) (by decide),
    at_main_v45 V,
    at_main_v46 V]
  rfl

theorem at_main_v48 (V : Valuation τ sig (Elt F)) :
    after (ops (F := F)) V (Proc.devRef .tc main_v48) = val_main_v48 (F := F) (V (Proc.devRef .tc main_arg0)) (V (Proc.devRef .tc main_arg1)) (V (Proc.devRef .tc main_arg3)) (V (Proc.devRef .tc main_arg4)) (V (Proc.devRef .tc main_arg5)) := by
  rewrite [step_unary V 61 _ _ _ _ _ rfl (by decide) (by decide),
    at_main_v47 V]
  rfl

theorem at_main_v49 (V : Valuation τ sig (Elt F)) :
    after (ops (F := F)) V (Proc.devRef .tc main_v49) = val_main_v49 (F := F) (V (Proc.devRef .tc main_arg0)) (V (Proc.devRef .tc main_arg1)) (V (Proc.devRef .tc main_arg3)) (V (Proc.devRef .tc main_arg4)) (V (Proc.devRef .tc main_arg5)) := by
  rewrite [step_binary V 62 _ _ _ _ _ _ _ rfl (by decide) (by decide) (by decide),
    at_main_v39 V,
    at_main_v48 V]
  rfl

theorem at_main_v50 (V : Valuation τ sig (Elt F)) :
    after (ops (F := F)) V (Proc.devRef .tc main_v50) = val_main_v50 (F := F) (V (Proc.devRef .tc main_arg0)) (V (Proc.devRef .tc main_arg1)) (V (Proc.devRef .tc main_arg3)) (V (Proc.devRef .tc main_arg4)) (V (Proc.devRef .tc main_arg5)) := by
  rewrite [step_binary V 63 _ _ _ _ _ _ _ rfl (by decide) (by decide) (by decide),
    at_main_v49 V]
  rfl

theorem at_main_cst_9 (V : Valuation τ sig (Elt F)) :
    after (ops (F := F)) V (Proc.devRef .tc main_cst_9) = val_main_cst_9 (F := F) := by
  rewrite [step_nullary V 64 _ _ _ rfl (by decide)]
  rfl

theorem at_main_v51 (V : Valuation τ sig (Elt F)) :
    after (ops (F := F)) V (Proc.devRef .tc main_v51) = val_main_v51 (F := F) (V (Proc.devRef .tc main_arg0)) (V (Proc.devRef .tc main_arg1)) (V (Proc.devRef .tc main_arg3)) (V (Proc.devRef .tc main_arg4)) (V (Proc.devRef .tc main_arg5)) := by
  rewrite [step_binary V 65 _ _ _ _ _ _ _ rfl (by decide) (by decide) (by decide),
    at_main_v50 V,
    at_main_cst_9 V]
  rfl

theorem at_main_v52 (V : Valuation τ sig (Elt F)) :
    after (ops (F := F)) V (Proc.devRef .tc main_v52) = val_main_v52 (F := F) (V (Proc.devRef .tc main_arg0)) (V (Proc.devRef .tc main_arg1)) (V (Proc.devRef .tc main_arg3)) (V (Proc.devRef .tc main_arg4)) (V (Proc.devRef .tc main_arg5)) := by
  rewrite [step_unary V 66 _ _ _ _ _ rfl (by decide) (by decide),
    at_main_v51 V]
  rfl

theorem at_main_cst_10 (V : Valuation τ sig (Elt F)) :
    after (ops (F := F)) V (Proc.devRef .tc main_cst_10) = val_main_cst_10 (F := F) := by
  rewrite [step_nullary V 67 _ _ _ rfl (by decide)]
  rfl

theorem at_main_v53 (V : Valuation τ sig (Elt F)) :
    after (ops (F := F)) V (Proc.devRef .tc main_v53) = val_main_v53 (F := F) := by
  rewrite [step_unary V 68 _ _ _ _ _ rfl (by decide) (by decide),
    at_main_cst_10 V]
  rfl

theorem at_main_v54 (V : Valuation τ sig (Elt F)) :
    after (ops (F := F)) V (Proc.devRef .tc main_v54) = val_main_v54 (F := F) (V (Proc.devRef .tc main_arg0)) (V (Proc.devRef .tc main_arg1)) (V (Proc.devRef .tc main_arg3)) (V (Proc.devRef .tc main_arg4)) (V (Proc.devRef .tc main_arg5)) := by
  rewrite [step_binary V 69 _ _ _ _ _ _ _ rfl (by decide) (by decide) (by decide),
    at_main_v52 V,
    at_main_v53 V]
  rfl

theorem at_main_v55 (V : Valuation τ sig (Elt F)) :
    after (ops (F := F)) V (Proc.devRef .tc main_v55) = val_main_v55 (F := F) (V (Proc.devRef .tc main_arg0)) (V (Proc.devRef .tc main_arg1)) (V (Proc.devRef .tc main_arg3)) (V (Proc.devRef .tc main_arg4)) (V (Proc.devRef .tc main_arg5)) := by
  rewrite [step_unary V 70 _ _ _ _ _ rfl (by decide) (by decide),
    at_main_v47 V]
  rfl

theorem at_main_v56 (V : Valuation τ sig (Elt F)) :
    after (ops (F := F)) V (Proc.devRef .tc main_v56) = val_main_v56 (F := F) (V (Proc.devRef .tc main_arg0)) (V (Proc.devRef .tc main_arg1)) (V (Proc.devRef .tc main_arg3)) (V (Proc.devRef .tc main_arg4)) (V (Proc.devRef .tc main_arg5)) := by
  rewrite [step_binary V 71 _ _ _ _ _ _ _ rfl (by decide) (by decide) (by decide),
    at_main_v39 V,
    at_main_v55 V]
  rfl

theorem at_main_v57 (V : Valuation τ sig (Elt F)) :
    after (ops (F := F)) V (Proc.devRef .tc main_v57) = val_main_v57 (F := F) (V (Proc.devRef .tc main_arg6)) := by
  rewrite [step_unary V 72 _ _ _ _ _ rfl (by decide) (by decide),
    at_main_v41 V]
  rfl

theorem at_main_v58 (V : Valuation τ sig (Elt F)) :
    after (ops (F := F)) V (Proc.devRef .tc main_v58) = val_main_v58 (F := F) (V (Proc.devRef .tc main_arg6)) := by
  rewrite [step_unary V 73 _ _ _ _ _ rfl (by decide) (by decide),
    at_main_v57 V]
  rfl

theorem at_main_v59 (V : Valuation τ sig (Elt F)) :
    after (ops (F := F)) V (Proc.devRef .tc main_v59) = val_main_v59 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) := by
  rewrite [step_binary V 74 _ _ _ _ _ _ _ rfl (by decide) (by decide) (by decide),
    at_main_v58 V,
    at_main_v56 V]
  rfl

theorem at_main_cst_11 (V : Valuation τ sig (Elt F)) :
    after (ops (F := F)) V (Proc.devRef .tc main_cst_11) = val_main_cst_11 (F := F) := by
  rewrite [step_nullary V 75 _ _ _ rfl (by decide)]
  rfl

theorem at_main_v60 (V : Valuation τ sig (Elt F)) :
    after (ops (F := F)) V (Proc.devRef .tc main_v60) = val_main_v60 (F := F) := by
  rewrite [step_unary V 76 _ _ _ _ _ rfl (by decide) (by decide),
    at_main_cst_11 V]
  rfl

theorem at_main_v61 (V : Valuation τ sig (Elt F)) :
    after (ops (F := F)) V (Proc.devRef .tc main_v61) = val_main_v61 (F := F) (V (Proc.devRef .tc main_arg0)) (V (Proc.devRef .tc main_arg1)) (V (Proc.devRef .tc main_arg3)) (V (Proc.devRef .tc main_arg4)) (V (Proc.devRef .tc main_arg5)) := by
  rewrite [step_binary V 77 _ _ _ _ _ _ _ rfl (by decide) (by decide) (by decide),
    at_main_v54 V,
    at_main_v60 V]
  rfl

theorem at_main_v62 (V : Valuation τ sig (Elt F)) :
    after (ops (F := F)) V (Proc.devRef .tc main_v62) = val_main_v62 (F := F) (V (Proc.devRef .tc main_arg0)) (V (Proc.devRef .tc main_arg1)) (V (Proc.devRef .tc main_arg3)) (V (Proc.devRef .tc main_arg4)) (V (Proc.devRef .tc main_arg5)) := by
  rewrite [step_unary V 78 _ _ _ _ _ rfl (by decide) (by decide),
    at_main_v61 V]
  rfl

theorem at_main_v63 (V : Valuation τ sig (Elt F)) :
    after (ops (F := F)) V (Proc.devRef .tc main_v63) = val_main_v63 (F := F) (V (Proc.devRef .tc main_arg0)) (V (Proc.devRef .tc main_arg1)) (V (Proc.devRef .tc main_arg3)) (V (Proc.devRef .tc main_arg4)) (V (Proc.devRef .tc main_arg5)) := by
  rewrite [step_unary V 79 _ _ _ _ _ rfl (by decide) (by decide),
    at_main_v62 V]
  rfl

theorem at_main_v64 (V : Valuation τ sig (Elt F)) :
    after (ops (F := F)) V (Proc.devRef .tc main_v64) = val_main_v64 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) := by
  rewrite [step_binary V 80 _ _ _ _ _ _ _ rfl (by decide) (by decide) (by decide),
    at_main_v59 V,
    at_main_v63 V]
  rfl

theorem at_main_v65 (V : Valuation τ sig (Elt F)) :
    after (ops (F := F)) V (Proc.devRef .tc main_v65) = val_main_v65 (F := F) (V (Proc.devRef .tc main_arg7)) := by
  rewrite [step_unary V 81 _ _ _ _ _ rfl (by decide) (by decide),
    at_main_v43 V]
  rfl

theorem at_main_v66 (V : Valuation τ sig (Elt F)) :
    after (ops (F := F)) V (Proc.devRef .tc main_v66) = val_main_v66 (F := F) (V (Proc.devRef .tc main_arg7)) := by
  rewrite [step_unary V 82 _ _ _ _ _ rfl (by decide) (by decide),
    at_main_v65 V]
  rfl

theorem at_main_v67 (V : Valuation τ sig (Elt F)) :
    after (ops (F := F)) V (Proc.devRef .tc main_v67) = val_main_v67 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 83 _ _ _ _ _ _ _ rfl (by decide) (by decide) (by decide),
    at_main_v64 V,
    at_main_v66 V]
  rfl

theorem at_main_call1_cst (V : Valuation τ sig (Elt F)) :
    after (ops (F := F)) V (Proc.devRef .tc main_call1_cst) = val_main_call1_cst (F := F) := by
  rewrite [step_nullary V 84 _ _ _ rfl (by decide)]
  rfl

theorem at_main_call1_v0 (V : Valuation τ sig (Elt F)) :
    after (ops (F := F)) V (Proc.devRef .tc main_call1_v0) = val_main_call1_v0 (F := F) := by
  rewrite [step_unary V 85 _ _ _ _ _ rfl (by decide) (by decide),
    at_main_call1_cst V]
  rfl

theorem at_main_v68 (V : Valuation τ sig (Elt F)) :
    after (ops (F := F)) V (Proc.devRef .tc main_v68) = val_main_v68 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 86 _ _ _ _ _ _ _ rfl (by decide) (by decide) (by decide),
    at_main_v67 V,
    at_main_call1_v0 V]
  rfl

theorem at_main_c_12 (V : Valuation τ sig (Elt F)) :
    after (ops (F := F)) V (Proc.devRef .tc main_c_12) = val_main_c_12 (F := F) := by
  rewrite [step_nullary V 87 _ _ _ rfl (by decide)]
  rfl

theorem at_main_v69 (V : Valuation τ sig (Elt F)) :
    after (ops (F := F)) V (Proc.devRef .tc main_v69) = val_main_v69 (F := F) := by
  rewrite [step_unary V 88 _ _ _ _ _ rfl (by decide) (by decide),
    at_main_c_12 V]
  rfl

theorem at_main_v70 (V : Valuation τ sig (Elt F)) :
    after (ops (F := F)) V (Proc.devRef .tc main_v70) = val_main_v70 (F := F) (V (Proc.devRef .tc main_arg1)) := by
  rewrite [step_binary V 89 _ _ _ _ _ _ _ rfl (by decide) (by decide) (by decide),
    at_main_v1 V,
    at_main_v69 V]
  rfl

theorem at_main_c_13 (V : Valuation τ sig (Elt F)) :
    after (ops (F := F)) V (Proc.devRef .tc main_c_13) = val_main_c_13 (F := F) := by
  rewrite [step_nullary V 90 _ _ _ rfl (by decide)]
  rfl

theorem at_main_v71 (V : Valuation τ sig (Elt F)) :
    after (ops (F := F)) V (Proc.devRef .tc main_v71) = val_main_v71 (F := F) := by
  rewrite [step_unary V 91 _ _ _ _ _ rfl (by decide) (by decide),
    at_main_c_13 V]
  rfl

theorem at_main_v72 (V : Valuation τ sig (Elt F)) :
    after (ops (F := F)) V (Proc.devRef .tc main_v72) = val_main_v72 (F := F) (V (Proc.devRef .tc main_arg1)) := by
  rewrite [step_binary V 92 _ _ _ _ _ _ _ rfl (by decide) (by decide) (by decide),
    at_main_v1 V,
    at_main_v71 V]
  rfl

theorem at_main_v73 (V : Valuation τ sig (Elt F)) :
    after (ops (F := F)) V (Proc.devRef .tc main_v73) = val_main_v73 (F := F) (V (Proc.devRef .tc main_arg1)) := by
  rewrite [step_ternary V 93 _ _ _ _ _ _ _ _ _ rfl (by decide) (by decide) (by decide) (by decide),
    at_main_v70 V,
    at_main_v72 V,
    at_main_v1 V]
  rfl

theorem at_main_v74 (V : Valuation τ sig (Elt F)) :
    after (ops (F := F)) V (Proc.devRef .tc main_v74) = val_main_v74 (F := F) (V (Proc.devRef .tc main_arg1)) := by
  rewrite [step_unary V 94 _ _ _ _ _ rfl (by decide) (by decide),
    at_main_v73 V]
  rfl

theorem at_main_v75 (V : Valuation τ sig (Elt F)) :
    after (ops (F := F)) V (Proc.devRef .tc main_v75) = val_main_v75 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 95 _ _ _ _ _ _ _ rfl (by decide) (by decide) (by decide),
    at_main_v68 V,
    at_main_v74 V]
  rfl

theorem at_main_cst_14 (V : Valuation τ sig (Elt F)) :
    after (ops (F := F)) V (Proc.devRef .tc main_cst_14) = val_main_cst_14 (F := F) := by
  rewrite [step_nullary V 96 _ _ _ rfl (by decide)]
  rfl

theorem at_main_v76 (V : Valuation τ sig (Elt F)) :
    after (ops (F := F)) V (Proc.devRef .tc main_v76) = val_main_v76 (F := F) := by
  rewrite [step_unary V 97 _ _ _ _ _ rfl (by decide) (by decide),
    at_main_cst_14 V]
  rfl

theorem at_main_v77 (V : Valuation τ sig (Elt F)) :
    after (ops (F := F)) V (Proc.devRef .tc main_v77) = val_main_v77 (F := F) (V (Proc.devRef .tc main_arg1)) := by
  rewrite [step_unary V 98 _ _ _ _ _ rfl (by decide) (by decide),
    at_main_v3 V]
  rfl

theorem at_main_v78 (V : Valuation τ sig (Elt F)) :
    after (ops (F := F)) V (Proc.devRef .tc main_v78) = val_main_v78 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_ternary V 99 _ _ _ _ _ _ _ _ _ rfl (by decide) (by decide) (by decide) (by decide),
    at_main_v76 V,
    at_main_v77 V,
    at_main_v75 V]
  rfl

theorem at_main_v79 (V : Valuation τ sig (Elt F)) :
    after (ops (F := F)) V (Proc.devRef .tc main_v79) = val_main_v79 (F := F) (V (Proc.devRef .tc main_arg1)) := by
  rewrite [step_unary V 100 _ _ _ _ _ rfl (by decide) (by decide),
    at_main_v15 V]
  rfl

theorem at_main_v80 (V : Valuation τ sig (Elt F)) :
    after (ops (F := F)) V (Proc.devRef .tc main_v80) = val_main_v80 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 101 _ _ _ _ _ _ _ rfl (by decide) (by decide) (by decide),
    at_main_v78 V,
    at_main_v79 V]
  rfl

theorem at_main_v81 (V : Valuation τ sig (Elt F)) :
    after (ops (F := F)) V (Proc.devRef .tc main_v81) = val_main_v81 (F := F) (V (Proc.devRef .tc main_arg3)) := by
  rewrite [step_unary V 102 _ _ _ _ _ rfl (by decide) (by decide),
    at_main_arg3 V]
  rfl

theorem at_main_v82 (V : Valuation τ sig (Elt F)) :
    after (ops (F := F)) V (Proc.devRef .tc main_v82) = val_main_v82 (F := F) (V (Proc.devRef .tc main_arg3)) := by
  rewrite [step_reshape V 103 _ _ _ _ _ _ rfl (by decide) (by decide),
    at_main_v81 V]
  rfl

theorem at_main_v83 (V : Valuation τ sig (Elt F)) :
    after (ops (F := F)) V (Proc.devRef .tc main_v83) = val_main_v83 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 104 _ _ _ _ _ _ _ rfl (by decide) (by decide) (by decide),
    at_main_v80 V,
    at_main_v82 V]
  rfl

theorem at_main_v84 (V : Valuation τ sig (Elt F)) :
    after (ops (F := F)) V (Proc.devRef .tc main_v84) = val_main_v84 (F := F) (V (Proc.devRef .tc main_arg4)) := by
  rewrite [step_unary V 105 _ _ _ _ _ rfl (by decide) (by decide),
    at_main_arg4 V]
  rfl

theorem at_main_v85 (V : Valuation τ sig (Elt F)) :
    after (ops (F := F)) V (Proc.devRef .tc main_v85) = val_main_v85 (F := F) (V (Proc.devRef .tc main_arg4)) := by
  rewrite [step_reshape V 106 _ _ _ _ _ _ rfl (by decide) (by decide),
    at_main_v84 V]
  rfl

theorem at_main_v86 (V : Valuation τ sig (Elt F)) :
    after (ops (F := F)) V (Proc.devRef .tc main_v86) = val_main_v86 (F := F) (V (Proc.devRef .tc main_arg4)) := by
  rewrite [step_unary V 107 _ _ _ _ _ rfl (by decide) (by decide),
    at_main_v85 V]
  rfl

theorem at_main_v87 (V : Valuation τ sig (Elt F)) :
    after (ops (F := F)) V (Proc.devRef .tc main_v87) = val_main_v87 (F := F) (V (Proc.devRef .tc main_arg4)) := by
  rewrite [step_unary V 108 _ _ _ _ _ rfl (by decide) (by decide),
    at_main_v86 V]
  rfl

theorem at_main_v88 (V : Valuation τ sig (Elt F)) :
    after (ops (F := F)) V (Proc.devRef .tc main_v88) = val_main_v88 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 109 _ _ _ _ _ _ _ rfl (by decide) (by decide) (by decide),
    at_main_v83 V,
    at_main_v87 V]
  rfl

theorem at_main_v89 (V : Valuation τ sig (Elt F)) :
    after (ops (F := F)) V (Proc.devRef .tc main_v89) = val_main_v89 (F := F) (V (Proc.devRef .tc main_arg5)) := by
  rewrite [step_unary V 110 _ _ _ _ _ rfl (by decide) (by decide),
    at_main_arg5 V]
  rfl

theorem at_main_v90 (V : Valuation τ sig (Elt F)) :
    after (ops (F := F)) V (Proc.devRef .tc main_v90) = val_main_v90 (F := F) (V (Proc.devRef .tc main_arg5)) := by
  rewrite [step_reshape V 111 _ _ _ _ _ _ rfl (by decide) (by decide),
    at_main_v89 V]
  rfl

theorem at_main_v91 (V : Valuation τ sig (Elt F)) :
    after (ops (F := F)) V (Proc.devRef .tc main_v91) = val_main_v91 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 112 _ _ _ _ _ _ _ rfl (by decide) (by decide) (by decide),
    at_main_v68 V,
    at_main_v90 V]
  rfl

theorem at_main_v92 (V : Valuation τ sig (Elt F)) :
    after (ops (F := F)) V (Proc.devRef .tc main_v92) = val_main_v92 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 113 _ _ _ _ _ _ _ rfl (by decide) (by decide) (by decide),
    at_main_v88 V,
    at_main_v91 V]
  rfl

theorem at_main_v93 (V : Valuation τ sig (Elt F)) :
    after (ops (F := F)) V (Proc.devRef .tc main_v93) = val_main_v93 (F := F) (V (Proc.devRef .tc main_arg6)) := by
  rewrite [step_unary V 114 _ _ _ _ _ rfl (by decide) (by decide),
    at_main_arg6 V]
  rfl

theorem at_main_v94 (V : Valuation τ sig (Elt F)) :
    after (ops (F := F)) V (Proc.devRef .tc main_v94) = val_main_v94 (F := F) (V (Proc.devRef .tc main_arg6)) := by
  rewrite [step_reshape V 115 _ _ _ _ _ _ rfl (by decide) (by decide),
    at_main_v93 V]
  rfl

theorem at_main_v95 (V : Valuation τ sig (Elt F)) :
    after (ops (F := F)) V (Proc.devRef .tc main_v95) = val_main_v95 (F := F) (V (Proc.devRef .tc main_arg7)) := by
  rewrite [step_unary V 116 _ _ _ _ _ rfl (by decide) (by decide),
    at_main_arg7 V]
  rfl

theorem at_main_v96 (V : Valuation τ sig (Elt F)) :
    after (ops (F := F)) V (Proc.devRef .tc main_v96) = val_main_v96 (F := F) (V (Proc.devRef .tc main_arg7)) := by
  rewrite [step_reshape V 117 _ _ _ _ _ _ rfl (by decide) (by decide),
    at_main_v95 V]
  rfl

theorem at_main_cst_15 (V : Valuation τ sig (Elt F)) :
    after (ops (F := F)) V (Proc.devRef .tc main_cst_15) = val_main_cst_15 (F := F) := by
  rewrite [step_nullary V 118 _ _ _ rfl (by decide)]
  rfl

theorem at_main_v97 (V : Valuation τ sig (Elt F)) :
    after (ops (F := F)) V (Proc.devRef .tc main_v97) = val_main_v97 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 119 _ _ _ _ _ _ _ rfl (by decide) (by decide) (by decide),
    at_main_v92 V,
    at_main_cst_15 V]
  rfl

theorem at_main_v98 (V : Valuation τ sig (Elt F)) :
    after (ops (F := F)) V (Proc.devRef .tc main_v98) = val_main_v98 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_unary V 120 _ _ _ _ _ rfl (by decide) (by decide),
    at_main_v97 V]
  rfl

theorem at_main_cst_16 (V : Valuation τ sig (Elt F)) :
    after (ops (F := F)) V (Proc.devRef .tc main_cst_16) = val_main_cst_16 (F := F) := by
  rewrite [step_nullary V 121 _ _ _ rfl (by decide)]
  rfl

theorem at_main_v99 (V : Valuation τ sig (Elt F)) :
    after (ops (F := F)) V (Proc.devRef .tc main_v99) = val_main_v99 (F := F) := by
  rewrite [step_unary V 122 _ _ _ _ _ rfl (by decide) (by decide),
    at_main_cst_16 V]
  rfl

theorem at_main_v100 (V : Valuation τ sig (Elt F)) :
    after (ops (F := F)) V (Proc.devRef .tc main_v100) = val_main_v100 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 123 _ _ _ _ _ _ _ rfl (by decide) (by decide) (by decide),
    at_main_v98 V,
    at_main_v99 V]
  rfl

theorem at_main_v101 (V : Valuation τ sig (Elt F)) :
    after (ops (F := F)) V (Proc.devRef .tc main_v101) = val_main_v101 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_unary V 124 _ _ _ _ _ rfl (by decide) (by decide),
    at_main_v100 V]
  rfl

theorem at_main_v102 (V : Valuation τ sig (Elt F)) :
    after (ops (F := F)) V (Proc.devRef .tc main_v102) = val_main_v102 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 125 _ _ _ _ _ _ _ rfl (by decide) (by decide) (by decide),
    at_main_v92 V,
    at_main_v101 V]
  rfl

theorem at_main_v103 (V : Valuation τ sig (Elt F)) :
    after (ops (F := F)) V (Proc.devRef .tc main_v103) = val_main_v103 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 126 _ _ _ _ _ _ _ rfl (by decide) (by decide) (by decide),
    at_main_v102 V]
  rfl

theorem at_main_cst_17 (V : Valuation τ sig (Elt F)) :
    after (ops (F := F)) V (Proc.devRef .tc main_cst_17) = val_main_cst_17 (F := F) := by
  rewrite [step_nullary V 127 _ _ _ rfl (by decide)]
  rfl

theorem at_main_v104 (V : Valuation τ sig (Elt F)) :
    after (ops (F := F)) V (Proc.devRef .tc main_v104) = val_main_v104 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 128 _ _ _ _ _ _ _ rfl (by decide) (by decide) (by decide),
    at_main_v103 V,
    at_main_cst_17 V]
  rfl

theorem at_main_v105 (V : Valuation τ sig (Elt F)) :
    after (ops (F := F)) V (Proc.devRef .tc main_v105) = val_main_v105 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_unary V 129 _ _ _ _ _ rfl (by decide) (by decide),
    at_main_v104 V]
  rfl

theorem at_main_cst_18 (V : Valuation τ sig (Elt F)) :
    after (ops (F := F)) V (Proc.devRef .tc main_cst_18) = val_main_cst_18 (F := F) := by
  rewrite [step_nullary V 130 _ _ _ rfl (by decide)]
  rfl

theorem at_main_v106 (V : Valuation τ sig (Elt F)) :
    after (ops (F := F)) V (Proc.devRef .tc main_v106) = val_main_v106 (F := F) := by
  rewrite [step_unary V 131 _ _ _ _ _ rfl (by decide) (by decide),
    at_main_cst_18 V]
  rfl

theorem at_main_v107 (V : Valuation τ sig (Elt F)) :
    after (ops (F := F)) V (Proc.devRef .tc main_v107) = val_main_v107 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 132 _ _ _ _ _ _ _ rfl (by decide) (by decide) (by decide),
    at_main_v105 V,
    at_main_v106 V]
  rfl

theorem at_main_v108 (V : Valuation τ sig (Elt F)) :
    after (ops (F := F)) V (Proc.devRef .tc main_v108) = val_main_v108 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_unary V 133 _ _ _ _ _ rfl (by decide) (by decide),
    at_main_v100 V]
  rfl

theorem at_main_v109 (V : Valuation τ sig (Elt F)) :
    after (ops (F := F)) V (Proc.devRef .tc main_v109) = val_main_v109 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 134 _ _ _ _ _ _ _ rfl (by decide) (by decide) (by decide),
    at_main_v92 V,
    at_main_v108 V]
  rfl

theorem at_main_v110 (V : Valuation τ sig (Elt F)) :
    after (ops (F := F)) V (Proc.devRef .tc main_v110) = val_main_v110 (F := F) (V (Proc.devRef .tc main_arg6)) := by
  rewrite [step_unary V 135 _ _ _ _ _ rfl (by decide) (by decide),
    at_main_v94 V]
  rfl

theorem at_main_v111 (V : Valuation τ sig (Elt F)) :
    after (ops (F := F)) V (Proc.devRef .tc main_v111) = val_main_v111 (F := F) (V (Proc.devRef .tc main_arg6)) := by
  rewrite [step_unary V 136 _ _ _ _ _ rfl (by decide) (by decide),
    at_main_v110 V]
  rfl

theorem at_main_v112 (V : Valuation τ sig (Elt F)) :
    after (ops (F := F)) V (Proc.devRef .tc main_v112) = val_main_v112 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 137 _ _ _ _ _ _ _ rfl (by decide) (by decide) (by decide),
    at_main_v111 V,
    at_main_v109 V]
  rfl

theorem at_main_cst_19 (V : Valuation τ sig (Elt F)) :
    after (ops (F := F)) V (Proc.devRef .tc main_cst_19) = val_main_cst_19 (F := F) := by
  rewrite [step_nullary V 138 _ _ _ rfl (by decide)]
  rfl

theorem at_main_v113 (V : Valuation τ sig (Elt F)) :
    after (ops (F := F)) V (Proc.devRef .tc main_v113) = val_main_v113 (F := F) := by
  rewrite [step_unary V 139 _ _ _ _ _ rfl (by decide) (by decide),
    at_main_cst_19 V]
  rfl

theorem at_main_v114 (V : Valuation τ sig (Elt F)) :
    after (ops (F := F)) V (Proc.devRef .tc main_v114) = val_main_v114 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 140 _ _ _ _ _ _ _ rfl (by decide) (by decide) (by decide),
    at_main_v107 V,
    at_main_v113 V]
  rfl

theorem at_main_v115 (V : Valuation τ sig (Elt F)) :
    after (ops (F := F)) V (Proc.devRef .tc main_v115) = val_main_v115 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_unary V 141 _ _ _ _ _ rfl (by decide) (by decide),
    at_main_v114 V]
  rfl

theorem at_main_v116 (V : Valuation τ sig (Elt F)) :
    after (ops (F := F)) V (Proc.devRef .tc main_v116) = val_main_v116 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_unary V 142 _ _ _ _ _ rfl (by decide) (by decide),
    at_main_v115 V]
  rfl

theorem at_main_v117 (V : Valuation τ sig (Elt F)) :
    after (ops (F := F)) V (Proc.devRef .tc main_v117) = val_main_v117 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 143 _ _ _ _ _ _ _ rfl (by decide) (by decide) (by decide),
    at_main_v112 V,
    at_main_v116 V]
  rfl

theorem at_main_v118 (V : Valuation τ sig (Elt F)) :
    after (ops (F := F)) V (Proc.devRef .tc main_v118) = val_main_v118 (F := F) (V (Proc.devRef .tc main_arg7)) := by
  rewrite [step_unary V 144 _ _ _ _ _ rfl (by decide) (by decide),
    at_main_v96 V]
  rfl

theorem at_main_v119 (V : Valuation τ sig (Elt F)) :
    after (ops (F := F)) V (Proc.devRef .tc main_v119) = val_main_v119 (F := F) (V (Proc.devRef .tc main_arg7)) := by
  rewrite [step_unary V 145 _ _ _ _ _ rfl (by decide) (by decide),
    at_main_v118 V]
  rfl

theorem at_main_v120 (V : Valuation τ sig (Elt F)) :
    after (ops (F := F)) V (Proc.devRef .tc main_v120) = val_main_v120 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 146 _ _ _ _ _ _ _ rfl (by decide) (by decide) (by decide),
    at_main_v117 V,
    at_main_v119 V]
  rfl

theorem at_main_call2_cst (V : Valuation τ sig (Elt F)) :
    after (ops (F := F)) V (Proc.devRef .tc main_call2_cst) = val_main_call2_cst (F := F) := by
  rewrite [step_nullary V 147 _ _ _ rfl (by decide)]
  rfl

theorem at_main_call2_v0 (V : Valuation τ sig (Elt F)) :
    after (ops (F := F)) V (Proc.devRef .tc main_call2_v0) = val_main_call2_v0 (F := F) := by
  rewrite [step_unary V 148 _ _ _ _ _ rfl (by decide) (by decide),
    at_main_call2_cst V]
  rfl

theorem at_main_v121 (V : Valuation τ sig (Elt F)) :
    after (ops (F := F)) V (Proc.devRef .tc main_v121) = val_main_v121 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) := by
  rewrite [step_binary V 149 _ _ _ _ _ _ _ rfl (by decide) (by decide) (by decide),
    at_main_v120 V,
    at_main_call2_v0 V]
  rfl

theorem at_main_cst_20 (V : Valuation τ sig (Elt F)) :
    after (ops (F := F)) V (Proc.devRef .tc main_cst_20) = val_main_cst_20 (F := F) := by
  rewrite [step_nullary V 150 _ _ _ rfl (by decide)]
  rfl

theorem at_main_v122 (V : Valuation τ sig (Elt F)) :
    after (ops (F := F)) V (Proc.devRef .tc main_v122) = val_main_v122 (F := F) := by
  rewrite [step_unary V 151 _ _ _ _ _ rfl (by decide) (by decide),
    at_main_cst_20 V]
  rfl

theorem at_main_cst_21 (V : Valuation τ sig (Elt F)) :
    after (ops (F := F)) V (Proc.devRef .tc main_cst_21) = val_main_cst_21 (F := F) := by
  rewrite [step_nullary V 152 _ _ _ rfl (by decide)]
  rfl

theorem at_main_v123 (V : Valuation τ sig (Elt F)) :
    after (ops (F := F)) V (Proc.devRef .tc main_v123) = val_main_v123 (F := F) := by
  rewrite [step_unary V 153 _ _ _ _ _ rfl (by decide) (by decide),
    at_main_cst_21 V]
  rfl

theorem at_main_v124 (V : Valuation τ sig (Elt F)) :
    after (ops (F := F)) V (Proc.devRef .tc main_v124) = val_main_v124 (F := F) (V (Proc.devRef .tc main_arg2)) := by
  rewrite [step_unary V 154 _ _ _ _ _ rfl (by decide) (by decide),
    at_main_arg2 V]
  rfl

theorem at_main_v125 (V : Valuation τ sig (Elt F)) :
    after (ops (F := F)) V (Proc.devRef .tc main_v125) = val_main_v125 (F := F) (V (Proc.devRef .tc main_arg2)) := by
  rewrite [step_ternary V 155 _ _ _ _ _ _ _ _ _ rfl (by decide) (by decide) (by decide) (by decide),
    at_main_v123 V,
    at_main_v124 V,
    at_main_v122 V]
  rfl

theorem at_main_cst_22 (V : Valuation τ sig (Elt F)) :
    after (ops (F := F)) V (Proc.devRef .tc main_cst_22) = val_main_cst_22 (F := F) := by
  rewrite [step_nullary V 156 _ _ _ rfl (by decide)]
  rfl

theorem at_main_v126 (V : Valuation τ sig (Elt F)) :
    after (ops (F := F)) V (Proc.devRef .tc main_v126) = val_main_v126 (F := F) := by
  rewrite [step_unary V 157 _ _ _ _ _ rfl (by decide) (by decide),
    at_main_cst_22 V]
  rfl

theorem at_main_v127 (V : Valuation τ sig (Elt F)) :
    after (ops (F := F)) V (Proc.devRef .tc main_v127) = val_main_v127 (F := F) (V (Proc.devRef .tc main_arg2)) := by
  rewrite [step_unary V 158 _ _ _ _ _ rfl (by decide) (by decide),
    at_main_arg2 V]
  rfl

theorem at_main_v128 (V : Valuation τ sig (Elt F)) :
    after (ops (F := F)) V (Proc.devRef .tc main_v128) = val_main_v128 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rewrite [step_ternary V 159 _ _ _ _ _ _ _ _ _ rfl (by decide) (by decide) (by decide) (by decide),
    at_main_v126 V,
    at_main_v127 V,
    at_main_v121 V]
  rfl

theorem at_main_cst_23 (V : Valuation τ sig (Elt F)) :
    after (ops (F := F)) V (Proc.devRef .tc main_cst_23) = val_main_cst_23 (F := F) := by
  rewrite [step_nullary V 160 _ _ _ rfl (by decide)]
  rfl

theorem at_main_v129 (V : Valuation τ sig (Elt F)) :
    after (ops (F := F)) V (Proc.devRef .tc main_v129) = val_main_v129 (F := F) := by
  rewrite [step_unary V 161 _ _ _ _ _ rfl (by decide) (by decide),
    at_main_cst_23 V]
  rfl

theorem at_main_v130 (V : Valuation τ sig (Elt F)) :
    after (ops (F := F)) V (Proc.devRef .tc main_v130) = val_main_v130 (F := F) (V (Proc.devRef .tc main_arg2)) := by
  rewrite [step_binary V 162 _ _ _ _ _ _ _ rfl (by decide) (by decide) (by decide),
    at_main_v125 V,
    at_main_v129 V]
  rfl

theorem at_main_v131 (V : Valuation τ sig (Elt F)) :
    after (ops (F := F)) V (Proc.devRef .tc main_v131) = val_main_v131 (F := F) (V (Proc.devRef .tc main_arg2)) := by
  rewrite [step_unary V 163 _ _ _ _ _ rfl (by decide) (by decide),
    at_main_v130 V]
  rfl

theorem at_main_v132 (V : Valuation τ sig (Elt F)) :
    after (ops (F := F)) V (Proc.devRef .tc main_v132) = val_main_v132 (F := F) (V (Proc.devRef .tc main_arg2)) := by
  rewrite [step_unary V 164 _ _ _ _ _ rfl (by decide) (by decide),
    at_main_v131 V]
  rfl

theorem at_main_v133 (V : Valuation τ sig (Elt F)) :
    after (ops (F := F)) V (Proc.devRef .tc main_v133) = val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rewrite [step_binary V 165 _ _ _ _ _ _ _ rfl (by decide) (by decide) (by decide),
    at_main_v128 V,
    at_main_v132 V]
  rfl

theorem at_main_v134 (V : Valuation τ sig (Elt F)) :
    after (ops (F := F)) V (Proc.devRef .tc main_v134) = val_main_v134 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rewrite [step_binary V 166 _ _ _ _ _ _ _ rfl (by decide) (by decide) (by decide),
    at_main_v133 V,
    at_main_arg8 V]
  rfl

theorem at_main_v135 (V : Valuation τ sig (Elt F)) :
    after (ops (F := F)) V (Proc.devRef .tc main_v135) = val_main_v135 (F := F) (V (Proc.devRef .tc main_arg9)) := by
  rewrite [step_unary V 167 _ _ _ _ _ rfl (by decide) (by decide),
    at_main_arg9 V]
  rfl

theorem at_main_v136 (V : Valuation τ sig (Elt F)) :
    after (ops (F := F)) V (Proc.devRef .tc main_v136) = val_main_v136 (F := F) (V (Proc.devRef .tc main_arg9)) := by
  rewrite [step_unary V 168 _ _ _ _ _ rfl (by decide) (by decide),
    at_main_v135 V]
  rfl

theorem at_main_v137 (V : Valuation τ sig (Elt F)) :
    after (ops (F := F)) V (Proc.devRef .tc main_v137) = val_main_v137 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rewrite [step_binary V 169 _ _ _ _ _ _ _ rfl (by decide) (by decide) (by decide),
    at_main_v134 V,
    at_main_v136 V]
  rfl

end Cert.RefRun

end
-- ==== Proof.RefRun.lean ====
/-
  The reference program's run, read one operation at a time.

  The reference's @main is a straight line of 170 host operations, each writing one buffer of its own, once, and after
  the buffers it reads. At the end of such a line the buffer of every operation holds the operation's function of what
  its operands' buffers hold at the end, and a buffer that no operation writes, an argument of @main, holds what it held
  at the start (the general part, in the module beside this one). Going down the line, the buffer of the k-th operation
  therefore holds the k-th stage `val_…` of the program applied to the arguments' initial contents, a stage being by
  definition its operation's function of its operands' stages (the table of the 170 operations, `at_…`). A straight line
  of host operations runs to its end from any memory with zero counters, every buffer ending at the fold of the
  operations' results over the launch contents (`run_seq`); at the result's buffer that fold is the last stage
  (`at_main_v137`), at an argument's buffer it is the launch contents (`at_main_arg0` … `at_main_arg9`). This is `run`.
-/
import proofs.«176213_j90091234001075_1_alg».proof.Proof.RefRunTable

noncomputable section

namespace Cert.RefRun

open Cert.ReferenceIdeal Cert.ReferenceIdeal.Value Cert.ReferenceIdeal.Read Idealize.ShloMosaic Idealize.ShloMosaic.TcCoe Idealize.SL.Sem Idealize.ShloMosaic.StableHlo

variable {F : FTy → Type} [FloatOps F]

set_option maxRecDepth 8192 in
/-- On every device, for any float values, from any memory with zero counters: every weakly fair execution of the
    reference's @main terminates with the result buffer at the last stage of the program read one operation at a time,
    applied to the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v137)
        = val_main_v137 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v137).trans (at_main_v137 (launchContents m c)),
      (h c main_arg0).trans (at_main_arg0 (launchContents m c)),
      (h c main_arg1).trans (at_main_arg1 (launchContents m c)),
      (h c main_arg2).trans (at_main_arg2 (launchContents m c)),
      (h c main_arg3).trans (at_main_arg3 (launchContents m c)),
      (h c main_arg4).trans (at_main_arg4 (launchContents m c)),
      (h c main_arg5).trans (at_main_arg5 (launchContents m c)),
      (h c main_arg6).trans (at_main_arg6 (launchContents m c)),
      (h c main_arg7).trans (at_main_arg7 (launchContents m c)),
      (h c main_arg8).trans (at_main_arg8 (launchContents m c)),
      (h c main_arg9).trans (at_main_arg9 (launchContents m c))⟩)
    (run_seq scopedRefs_eq scopedSems_eq defs main (fun _ => ops) main_eq (fun _ => ops_sub) m ρ)

end Cert.RefRun

end
-- ==== Proof.Claims.lean ====
/-
  The five claims about the two-layer graph convolution kernel and its reference.

  Both idealized programs compute, over the extended reals and with every sum and product grouped the same way: the
  in-degree of every node and its reciprocal (zero for an isolated node); twice, the mean of the neighbours' rows
  (a gather along the edges' sources, a scatter-add at their targets, the reciprocal in-degree) followed by one layer —
  neighbours through one weight matrix plus a bias plus the node's own row through another, normalised along the row
  with a scale and a shift, then relu —; and last the mean of the node rows per graph and a linear classifier. The kernel
  program runs the layer inside a kernel launched over blocks of 2000 rows and everything else as host operations; the
  reference runs all of it as host operations. The kernel program's result is the reference's last stage of the
  arguments (`Cert.KernelValue.result`), and so is the reference's own result (`Cert.RefRun.run`); the arguments agree.
  No step uses a law that fails at an infinity, so the precondition is never opened.

  The frames of the two kernel programs are their generated frame certificates; the reference has no kernel, and its
  frame is its run with the result dropped. The idealization rewrote no operation, so there is nothing to preserve.
-/
import proofs.«176213_j90091234001075_1_alg».proof.Defs
import proofs.«176213_j90091234001075_1_alg».proof.Proof.Gen.Kernel
import proofs.«176213_j90091234001075_1_alg».proof.Proof.Gen.Kernel.Frame
import proofs.«176213_j90091234001075_1_alg».proof.Proof.Gen.KernelIdeal
import proofs.«176213_j90091234001075_1_alg».proof.Proof.Gen.KernelIdeal.Frame
import proofs.«176213_j90091234001075_1_alg».proof.Proof.Gen.ReferenceIdeal
import proofs.«176213_j90091234001075_1_alg».proof.Proof.Gen.Pre_finite_inputs
import proofs.«176213_j90091234001075_1_alg».proof.Proof.KernelRun
import proofs.«176213_j90091234001075_1_alg».proof.Proof.KernelValue
import proofs.«176213_j90091234001075_1_alg».proof.Proof.RefRun

noncomputable section

namespace Cert.Proof.LayerClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments; its frame is that run with the result forgotten. -/
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- From memories that agree on the ten arguments both idealized programs run, and both end with the reference's last
    stage of those arguments in their result buffer. -/
theorem algebraic : Cert.algebraic_KernelIdeal_ReferenceIdeal := by
  intro m ρ m' ρ' _ hagree
  refine ⟨fun c => Cert.KernelIdeal.Gen.W7 m ρ c (Proc.devRef .tc Cert.KernelIdeal.main_v83),
    Cert.KernelRun.run_named (F := Ideal) m ρ, ?_⟩
  refine (θ_run Cert.ReferenceIdeal.defs _ _).mono (fun _ h c => ⟨(h c).1.trans ?_, (h c).2⟩)
    (Cert.RefRun.run (F := Ideal) m' ρ')
  obtain ⟨h0, h1, h2, h3, h4, h5, h6, h7, h8, h9⟩ := hagree c
  rw [h0, h1, h2, h3, h4, h5, h6, h7, h8, h9]
  exact (Cert.KernelValue.result m ρ c).symm

end Cert.Proof.LayerClaims

end
-- ==== Proof.lean ====
/-
  `Cert.Claim` for the two-layer graph convolution kernel: the programs' stated facts are the generated instances; the
  three frames, the empty idealization ledger and the equality of the two idealized programs' results over the extended
  reals are proved in Proof/Claims.lean, over these modules:
    Proof/LayerSpec.lean      one layer (affine part, normalisation along the row, relu) as a function of rows
    Proof/KernelRow.lean      the kernel body's stored value at an entry is that row function of the blocks' rows
    Proof/KernelRegions.lean  each launch's output array is the layer of the arrays it finds
    Proof/KernelHost.lean     the kernel program's host stretches hold the reference's stages
    Proof/KernelRun.lean      the kernel program's run, its result named by the fold over its seven segments
    Proof/KernelValue.lean    that result is the reference's last stage of the arguments
    Proof/RefLayers.lean      the reference's two layer stages are the layer of the stages before them
    Proof/RefRun.lean         the reference's run, its result the last stage of the arguments
-/
import proofs.«176213_j90091234001075_1_alg».proof.Defs
import proofs.«176213_j90091234001075_1_alg».proof.Proof.Claims
import proofs.«176213_j90091234001075_1_alg».proof.Proof.Gen.Kernel
import proofs.«176213_j90091234001075_1_alg».proof.Proof.Gen.KernelIdeal
import proofs.«176213_j90091234001075_1_alg».proof.Proof.Gen.ReferenceIdeal
import proofs.«176213_j90091234001075_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
